-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1250000 : Shape := ⟨2, ![2, 1250000]⟩
abbrev S100000 : Shape := ⟨1, ![100000]⟩
abbrev S16x8 : Shape := ⟨2, ![16, 8]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S10x64 : Shape := ⟨2, ![10, 64]⟩
abbrev S10 : Shape := ⟨1, ![10]⟩
abbrev S_ : Shape := ⟨0, ![]⟩

class Facts : Prop where
  bcast_S_S16x8 : S_.BroadcastsInDim S16x8 (![] : Fin 0 → Fin S16x8.rank)
  reducesTo_S16x8_S_d0_1 : S16x8.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S10 .f32) (main_v48 : IVec S_ 1) (main_v49 : FVec F S10x64 .f32) (main_v50 : FVec F S10x64 .f32) : IVec S_ 1 :=
  let main_v51 : IVec S10x64 1 := cmpf .olt main_v49 main_v50
  let main_c_19 : IVec S_ 1 := constantI S_ 1 1#1
  let main_v52 : IVec S_ 1 := (fun x v => Host.reduce IntOp.andi x v reducesTo_S10x64_S_d0_1 h_S_) main_v51 main_c_19
  let main_v53 : IVec S_ 1 := andi main_v48 main_v52
  let main_v54 : FVec F S10 .f32 := Host.absf main_arg14
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg10 : FVec F S64x64 .f32) (main_arg11 : FVec F S64 .f32) (main_arg12 : FVec F S64x64 .f32) (main_arg13 : FVec F S10x64 .f32) (main_arg14 : FVec F S10 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S10x64 .f32 := Host.absf main_arg13
  let main_cst_18 : FVec F S_ .f32 := constant S_ .f32 0x7F800000#32
  let main_v50 : FVec F S10x64 .f32 := broadcastInDim S10x64 ![] bcast_S_S10x64 main_cst_18
  fn_part3 (F := F) main_arg14 main_v48 main_v49 main_v50

def fn_part1 {F : FTy → Type} [FloatOps F] (main_arg7 : FVec F S64x32 .f32) (main_arg8 : FVec F S64 .f32) (main_arg9 : FVec F S64x32 .f32) (main_arg10 : FVec F S64x64 .f32) (main_arg11 : FVec F S64 .f32) (main_arg12 : FVec F S64x64 .f32) (main_arg13 : FVec F S10x64 .f32) (main_arg14 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg7
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg9
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : IVec S100000x2 32) (main_arg1 : IVec S2x1250000 32) (main_arg2 : IVec S100000 32) (main_arg3 : FVec F S16x8 .f32) (main_arg4 : FVec F S16x8 .f32) (main_arg5 : FVec F S32x16 .f32) (main_arg6 : FVec F S32 .f32) (main_arg7 : FVec F S64x32 .f32) (main_arg8 : FVec F S64 .f32) (main_arg9 : FVec F S64x32 .f32) (main_arg10 : FVec F S64x64 .f32) (main_arg11 : FVec F S64 .f32) (main_arg12 : FVec F S64x64 .f32) (main_arg13 : FVec F S10x64 .f32) (main_arg14 : FVec F S10 .f32) : IVec S_ 1 :=
  let main_v0 : FVec F S16x8 .f32 := Host.absf main_arg3
  let main_cst : FVec F S_ .f32 := constant S_ .f32 0x7F800000#32
  let main_v1 : FVec F S16x8 .f32 := broadcastInDim S16x8 ![] bcast_S_S16x8 main_cst
  let main_v2 : IVec S16x8 1 := cmpf .olt main_v0 main_v1
  let main_c : IVec S_ 1 := constantI S_ 1 1#1
  let main_v3 : IVec S_ 1 := (fun x v => Host.reduce IntOp.andi x v reducesTo_S16x8_S_d0_1 h_S_) main_v2 main_c
  let main_v4 : FVec F S16x8 .f32 := Host.absf main_arg4
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  let main_v9 : FVec F S32x16 .f32 := Host.absf main_arg5
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg7 main_arg8 main_arg9 main_arg10 main_arg11 main_arg12 main_arg13 main_arg14 main_v13 main_v16
-- ==== Kernel.lean ====
abbrev S100000x2 : Shape := ⟨2, ![100000, 2]⟩
abbrev S2x1250000 : Shape := ⟨2, ![2, 1250000]⟩
abbrev S100000 : Shape := ⟨1, ![100000]⟩
abbrev S16x8 : Shape := ⟨2, ![16, 8]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S100000x1 : Shape := ⟨2, ![100000, 1]⟩
abbrev S_ : Shape := ⟨0, ![]⟩
abbrev S100000x8 : Shape := ⟨2, ![100000, 8]⟩
abbrev S100000x16 : Shape := ⟨2, ![100000, 16]⟩
abbrev S16x32 : Shape := ⟨2, ![16, 32]⟩
abbrev S1x32 : Shape := ⟨2, ![1, 32]⟩
abbrev S100000x32 : Shape := ⟨2, ![100000, 32]⟩
abbrev S5000x16 : Shape := ⟨2, ![5000, 16]⟩
abbrev S5000x32 : Shape := ⟨2, ![5000, 32]⟩
abbrev S1250000x1 : Shape := ⟨2, ![1250000, 1]⟩
abbrev S1250000x32 : Shape := ⟨2, ![1250000, 32]⟩
abbrev S32x64 : Shape := ⟨2, ![32, 64]⟩
abbrev S1x64 : Shape := ⟨2, ![1, 64]⟩
abbrev S100000x64 : Shape := ⟨2, ![100000, 64]⟩
abbrev S5000x64 : Shape := ⟨2, ![5000, 64]⟩
abbrev S1250000x64 : Shape := ⟨2, ![1250000, 64]⟩
abbrev S1024x64 : Shape := ⟨2, ![1024, 64]⟩
abbrev S1024 : Shape := ⟨1, ![1024]⟩
abbrev S1024x1 : Shape := ⟨2, ![1024, 1]⟩
abbrev S64x10 : Shape := ⟨2, ![64, 10]⟩
abbrev S1x10 : Shape := ⟨2, ![1, 10]⟩
abbrev S1024x10 : Shape := ⟨2, ![1024, 10]⟩

abbrev nBuf : Space → Nat
  | .hbm => 98
  | .vmem => 28
  | .smem => 0
  | _ => 0

abbrev bufTy : (tb : Table) → Fin (tcTables nBuf tb) → BufTy
  | .hbm, ⟨0, _⟩ => ⟨S100000x2, .i32⟩
  | .hbm, ⟨1, _⟩ => ⟨S2x1250000, .i32⟩
  | .hbm, ⟨2, _⟩ => ⟨S100000, .i32⟩
  | .hbm, ⟨3, _⟩ => ⟨S16x8, .f32⟩
  | .hbm, ⟨4, _⟩ => ⟨S16x8, .f32⟩
  | .hbm, ⟨5, _⟩ => ⟨S32x16, .f32⟩
  | .hbm, ⟨6, _⟩ => ⟨S32, .f32⟩
  | .hbm, ⟨7, _⟩ => ⟨S64x32, .f32⟩
  | .hbm, ⟨8, _⟩ => ⟨S64, .f32⟩
  | .hbm, ⟨9, _⟩ => ⟨S64x32, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S10x64, .f32⟩
  | .hbm, ⟨14, _⟩ => ⟨S10, .f32⟩
  | .hbm, ⟨15, _⟩ => ⟨S1x1250000, .i32⟩
  | .hbm, ⟨16, _⟩ => ⟨S1250000, .i32⟩
  | .hbm, ⟨17, _⟩ => ⟨S1x1250000, .i32⟩
  | .hbm, ⟨18, _⟩ => ⟨S1250000, .i32⟩
  | .hbm, ⟨19, _⟩ => ⟨S100000x1, .i32⟩
  | .hbm, ⟨20, _⟩ => ⟨S100000, .i32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x8, .f32⟩
  | .hbm, ⟨30, _⟩ => ⟨S100000x1, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000x8, .f32⟩
  | .hbm, ⟨41, _⟩ => ⟨S100000x16, .f32⟩
  | .hbm, ⟨42, _⟩ => ⟨S16x32, .f32⟩
  | .hbm, ⟨43, _⟩ => ⟨S1x32, .f32⟩
  | .hbm, ⟨44, _⟩ => ⟨S100000x32, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x32, .f32⟩
  | .hbm, ⟨54, _⟩ => ⟨S_, .f32⟩
  | .hbm, ⟨55, _⟩ => ⟨S100000x32, .f32⟩
  | .hbm, ⟨56, _⟩ => ⟨S1250000x1, .i32⟩
  | .hbm, ⟨57, _⟩ => ⟨S100000x32, .f32⟩
  | .hbm, ⟨58, _⟩ => ⟨S32x64, .f32⟩
  | .hbm, ⟨59, _⟩ => ⟨S32x64, .f32⟩
  | .hbm, ⟨60, _⟩ => ⟨S1x64, .f32⟩
  | .hbm, ⟨61, _⟩ => ⟨S100000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S_, .f32⟩
  | .hbm, ⟨72, _⟩ => ⟨S100000x64, .f32⟩
  | .hbm, ⟨73, _⟩ => ⟨S1250000x1, .i32⟩
  | .hbm, ⟨74, _⟩ => ⟨S100000x64, .f32⟩
  | .hbm, ⟨75, _⟩ => ⟨S64x64, .f32⟩
  | .hbm, ⟨76, _⟩ => ⟨S64x64, .f32⟩
  | .hbm, ⟨77, _⟩ => ⟨S1x64, .f32⟩
  | .hbm, ⟨78, _⟩ => ⟨S100000x64, .f32⟩
  | .hbm, ⟨79, _⟩ => ⟨S_, .f32⟩
  | .hbm, ⟨80, _⟩ => ⟨S1024x64, .f32⟩
  | .hbm, ⟨81, _⟩ => ⟨S100000x1, .i32⟩
  | .hbm, ⟨82, _⟩ => ⟨S1024x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S1024, .f32⟩
  | .hbm, ⟨87, _⟩ => ⟨S100000x1, .i32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024x1, .f32⟩
  | .hbm, ⟨93, _⟩ => ⟨S1024x64, .f32⟩
  | .hbm, ⟨94, _⟩ => ⟨S1024x64, .f32⟩
  | .hbm, ⟨95, _⟩ => ⟨S64x10, .f32⟩
  | .hbm, ⟨96, _⟩ => ⟨S1x10, .f32⟩
  | .hbm, ⟨97, _⟩ => ⟨S1024x10, .f32⟩
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S32x64, .f32⟩
  | .local _ .vmem, ⟨11, _⟩ => ⟨S32x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S1024x64, .f32⟩
  | .local _ .vmem, ⟨25, _⟩ => ⟨S64x10, .f32⟩
  | .local _ .vmem, ⟨26, _⟩ => ⟨S1x10, .f32⟩
  | .local _ .vmem, ⟨27, _⟩ => ⟨S1024x10, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x8_S100000x8_S100000x16_d1 : Shape.Concatenates [S100000x8, S100000x8] S100000x16 1
  transposes_S32x16_S16x32_1_0 : S32x16.Transposes [1, 0] S16x32
  shapeCasts_S32_S1x32 : S32.ShapeCasts S1x32
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x32 : S_.BroadcastsInDim S100000x32 (![] : Fin 0 → Fin S100000x32.rank)
  transposes_S64x32_S32x64_1_0 : S64x32.Transposes [1, 0] S32x64
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  transposes_S10x64_S64x10_1_0 : S10x64.Transposes [1, 0] S64x10
  shapeCasts_S10_S1x10 : S10.ShapeCasts S1x10
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  gather_S16x8_S100000x1_S100000x8_1_0_n_n_0_1_18_wf : GatherDims.WF S16x8 S100000x1 S100000x8 [1] [0] [] [0] [] 1 ![1, 8]
  dot_S5000x16_S16x32_S5000x32_1_0_0_1_n_n_wf : DotDims.WF S5000x16 S16x32 S5000x32 [1] [0] [0] [1] [] []
  gather_S100000x32_S1250000x1_S1250000x32_1_0_n_n_0_1_132_wf : GatherDims.WF S100000x32 S1250000x1 S1250000x32 [1] [0] [] [0] [] 1 ![1, 32]
  scatter_S100000x32_S1250000x1_S1250000x32_1_0_0_1_wf : ScatterDims.WF S100000x32 S1250000x1 S1250000x32 [1] [0] [0] 1
  dot_S5000x32_S32x64_S5000x64_1_0_0_1_n_n_wf : DotDims.WF S5000x32 S32x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1024x10.size a ≤ S1024x10.size a
  hwx3_3 : ∀ i : grid3.Coords, EltTy.bits .f32 = 32 ∨ (Rect.block (s := S1024x10) S1024x10.size (cc3_transform_3 i) (hinb3_3 i)).WholeWords (EltTy.packing .f32)

variable [Facts₀]

def gather_S16x8_S100000x1_S100000x8_1_0_n_n_0_1_18 : GatherDims S16x8 S100000x1 S100000x8 where
  offsetDims := [1]
  collapsedSliceDims := [0]
  operandBatchingDims := []
  startIndicesBatchingDims := []
  startIndexMap := [0]
  indexVectorDim := 1
  sliceSizes := ![1, 8]
  wf := gather_S16x8_S100000x1_S100000x8_1_0_n_n_0_1_18_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S1250000x1_S1250000x32_1_0_n_n_0_1_132 : GatherDims S100000x32 S1250000x1 S1250000x32 where
  offsetDims := [1]
  collapsedSliceDims := [0]
  operandBatchingDims := []
  startIndicesBatchingDims := []
  startIndexMap := [0]
  indexVectorDim := 1
  sliceSizes := ![1, 32]
  wf := gather_S100000x32_S1250000x1_S1250000x32_1_0_n_n_0_1_132_wf
def scatter_S100000x32_S1250000x1_S1250000x32_1_0_0_1 : ScatterDims S100000x32 S1250000x1 S1250000x32 where
  updateWindowDims := [1]
  insertedWindowDims := [0]
  scatterDimsToOperandDims := [0]
  indexVectorDim := 1
  wf := scatter_S100000x32_S1250000x1_S1250000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_v22) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S1024x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v66) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1024x10.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x1250000 : Shape := ⟨2, ![2, 1250000]⟩
abbrev S100000 : Shape := ⟨1, ![100000]⟩
abbrev S16x8 : Shape := ⟨2, ![16, 8]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S100000x1 : Shape := ⟨2, ![100000, 1]⟩
abbrev S_ : Shape := ⟨0, ![]⟩
abbrev S100000x8 : Shape := ⟨2, ![100000, 8]⟩
abbrev S100000x16 : Shape := ⟨2, ![100000, 16]⟩
abbrev S16x32 : Shape := ⟨2, ![16, 32]⟩
abbrev S100000x32 : Shape := ⟨2, ![100000, 32]⟩
abbrev S1x32 : Shape := ⟨2, ![1, 32]⟩
abbrev S1250000x1 : Shape := ⟨2, ![1250000, 1]⟩
abbrev S1250000x32 : Shape := ⟨2, ![1250000, 32]⟩
abbrev S32x64 : Shape := ⟨2, ![32, 64]⟩
abbrev S100000x64 : Shape := ⟨2, ![100000, 64]⟩
abbrev S1x64 : Shape := ⟨2, ![1, 64]⟩
abbrev S1250000x64 : Shape := ⟨2, ![1250000, 64]⟩
abbrev S1024x64 : Shape := ⟨2, ![1024, 64]⟩
abbrev S1024 : Shape := ⟨1, ![1024]⟩
abbrev S1024x1 : Shape := ⟨2, ![1024, 1]⟩
abbrev S64x10 : Shape := ⟨2, ![64, 10]⟩
abbrev S1024x10 : Shape := ⟨2, ![1024, 10]⟩
abbrev S1x10 : Shape := ⟨2, ![1, 10]⟩

abbrev nBuf : Space → Nat
  | .hbm => 119
  | .vmem => 0
  | .smem => 0
  | _ => 0

abbrev bufTy : (tb : Table) → Fin (tcTables nBuf tb) → BufTy
  | .hbm, ⟨0, _⟩ => ⟨S100000x2, .i32⟩
  | .hbm, ⟨1, _⟩ => ⟨S2x1250000, .i32⟩
  | .hbm, ⟨2, _⟩ => ⟨S100000, .i32⟩
  | .hbm, ⟨3, _⟩ => ⟨S16x8, .f32⟩
  | .hbm, ⟨4, _⟩ => ⟨S16x8, .f32⟩
  | .hbm, ⟨5, _⟩ => ⟨S32x16, .f32⟩
  | .hbm, ⟨6, _⟩ => ⟨S32, .f32⟩
  | .hbm, ⟨7, _⟩ => ⟨S64x32, .f32⟩
  | .hbm, ⟨8, _⟩ => ⟨S64, .f32⟩
  | .hbm, ⟨9, _⟩ => ⟨S64x32, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S10x64, .f32⟩
  | .hbm, ⟨14, _⟩ => ⟨S10, .f32⟩
  | .hbm, ⟨15, _⟩ => ⟨S1x1250000, .i32⟩
  | .hbm, ⟨16, _⟩ => ⟨S1250000, .i32⟩
  | .hbm, ⟨17, _⟩ => ⟨S1x1250000, .i32⟩
  | .hbm, ⟨18, _⟩ => ⟨S1250000, .i32⟩
  | .hbm, ⟨19, _⟩ => ⟨S100000x1, .i32⟩
  | .hbm, ⟨20, _⟩ => ⟨S100000, .i32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x8, .f32⟩
  | .hbm, ⟨30, _⟩ => ⟨S100000x1, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000x8, .f32⟩
  | .hbm, ⟨41, _⟩ => ⟨S100000x16, .f32⟩
  | .hbm, ⟨42, _⟩ => ⟨S16x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x32, .f32⟩
  | .hbm, ⟨59, _⟩ => ⟨S_, .f32⟩
  | .hbm, ⟨60, _⟩ => ⟨S100000x32, .f32⟩
  | .hbm, ⟨61, _⟩ => ⟨S1250000x1, .i32⟩
  | .hbm, ⟨62, _⟩ => ⟨S100000x32, .f32⟩
  | .hbm, ⟨63, _⟩ => ⟨S32x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S32x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1250000, .i32⟩
  | .hbm, ⟨76, _⟩ => ⟨S1250000, .i1⟩
  | .hbm, ⟨77, _⟩ => ⟨S_, .i32⟩
  | .hbm, ⟨78, _⟩ => ⟨S1250000, .i32⟩
  | .hbm, ⟨79, _⟩ => ⟨S1250000, .i32⟩
  | .hbm, ⟨80, _⟩ => ⟨S1250000, .i32⟩
  | .hbm, ⟨81, _⟩ => ⟨S1250000x1, .i32⟩
  | .hbm, ⟨82, _⟩ => ⟨S1250000x64, .f32⟩
  | .hbm, ⟨83, _⟩ => ⟨S_, .f32⟩
  | .hbm, ⟨84, _⟩ => ⟨S100000x64, .f32⟩
  | .hbm, ⟨85, _⟩ => ⟨S1250000x1, .i32⟩
  | .hbm, ⟨86, _⟩ => ⟨S100000x64, .f32⟩
  | .hbm, ⟨87, _⟩ => ⟨S64x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S64x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S1024x64, .f32⟩
  | .hbm, ⟨100, _⟩ => ⟨S100000x1, .i32⟩
  | .hbm, ⟨101, _⟩ => ⟨S1024x64, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S1024, .f32⟩
  | .hbm, ⟨106, _⟩ => ⟨S100000x1, .i32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | .hbm, ⟨111, _⟩ => ⟨S1024x1, .f32⟩
  | .hbm, ⟨112, _⟩ => ⟨S1024x64, .f32⟩
  | .hbm, ⟨113, _⟩ => ⟨S1024x64, .f32⟩
  | .hbm, ⟨114, _⟩ => ⟨S64x10, .f32⟩
  | .hbm, ⟨115, _⟩ => ⟨S1024x10, .f32⟩
  | .hbm, ⟨116, _⟩ => ⟨S1x10, .f32⟩
  | .hbm, ⟨117, _⟩ => ⟨S1024x10, .f32⟩
  | .hbm, ⟨118, _⟩ => ⟨S1024x10, .f32⟩
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_5 : Ref sig .tc := ⟨.hbm, 74, rfl⟩
abbrev main_v48 : Ref sig .tc := ⟨.hbm, 75, rfl⟩
abbrev main_v49 : Ref sig .tc := ⟨.hbm, 76, rfl⟩
abbrev main_c_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x8_S100000x8_S100000x16_d1 : Shape.Concatenates [S100000x8, S100000x8] S100000x16 1
  transposes_S32x16_S16x32_1_0 : S32x16.Transposes [1, 0] S16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  transposes_S10x64_S64x10_1_0 : S10x64.Transposes [1, 0] S64x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  gather_S16x8_S100000x1_S100000x8_1_0_n_n_0_1_18_wf : GatherDims.WF S16x8 S100000x1 S100000x8 [1] [0] [] [0] [] 1 ![1, 8]
  dot_S100000x16_S16x32_S100000x32_1_0_0_1_n_n_wf : DotDims.WF S100000x16 S16x32 S100000x32 [1] [0] [0] [1] [] []
  gather_S100000x32_S1250000x1_S1250000x32_1_0_n_n_0_1_132_wf : GatherDims.WF S100000x32 S1250000x1 S1250000x32 [1] [0] [] [0] [] 1 ![1, 32]
  scatter_S100000x32_S1250000x1_S1250000x32_1_0_0_1_wf : ScatterDims.WF S100000x32 S1250000x1 S1250000x32 [1] [0] [0] 1
  dot_S100000x32_S32x64_S100000x64_1_0_0_1_n_n_wf : DotDims.WF S100000x32 S32x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []

variable [Facts₀]

def gather_S16x8_S100000x1_S100000x8_1_0_n_n_0_1_18 : GatherDims S16x8 S100000x1 S100000x8 where
  offsetDims := [1]
  collapsedSliceDims := [0]
  operandBatchingDims := []
  startIndicesBatchingDims := []
  startIndexMap := [0]
  indexVectorDim := 1
  sliceSizes := ![1, 8]
  wf := gather_S16x8_S100000x1_S100000x8_1_0_n_n_0_1_18_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1250000x1_S1250000x32_1_0_n_n_0_1_132 : GatherDims S100000x32 S1250000x1 S1250000x32 where
  offsetDims := [1]
  collapsedSliceDims := [0]
  operandBatchingDims := []
  startIndicesBatchingDims := []
  startIndexMap := [0]
  indexVectorDim := 1
  sliceSizes := ![1, 32]
  wf := gather_S100000x32_S1250000x1_S1250000x32_1_0_n_n_0_1_132_wf
def scatter_S100000x32_S1250000x1_S1250000x32_1_0_0_1 : ScatterDims S100000x32 S1250000x1 S1250000x32 where
  updateWindowDims := [1]
  insertedWindowDims := [0]
  scatterDimsToOperandDims := [0]
  indexVectorDim := 1
  wf := scatter_S100000x32_S1250000x1_S1250000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.ValueRun.lean ====
/-
  The run of the idealized kernel program, with the result array named.

  From any launch memory with every counter at zero, on the compiled mesh, every weakly fair execution of the program
  on the TensorCores terminates and nothing faults. The program is eight segments in order: four stretches of host
  operations, each followed by one blocked region. Write `W0` for a core's buffer contents at launch; a host stretch
  takes the contents at its entry to the contents its operations leave, and a region takes the contents at its entry
  to the same contents with its own arrays replaced by what its write-backs leave, block after block. Folding the
  eight segments from `W0` gives the contents `W8` at the last boundary, and every final state agrees with `W8` on
  every buffer that is not scoped to a region.

  Two readings of that agreement are recorded here, per core. The result array (1024 rows of 10 logits) is an output
  array of the fourth region and is not scoped, so it ends holding `W8` at its reference: what the fourth region's
  write-backs leave. Each of the fifteen argument arrays is written by no host operation and by no region, so walking
  the fold back from `W8` reaches the launch memory: the arguments end unchanged.
-/
import proofs.«103520_j88648124991072_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the composition theorem's implicit arguments are found by unifying its conclusion with this one, which takes
-- unfolding plain definitions in the type of a term still to be determined
set_option backward.isDefEq.respectTransparency.types false in
/-- Every weakly fair execution from the launch memory `m` (all counters zero, generator registers `ρ`) terminates
    without fault, and in every final state, on every core: the result array holds the last boundary's contents at its
    reference, and each argument array holds what it held at launch. The eight segments are composed in order from the
    launch contents; the last thread state (every unscoped buffer at the last boundary's contents) is read against the
    final state; the result array is one of those buffers, and each argument's contents at the last boundary are its
    launch contents. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v68) = Gen.W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W8 m ρ c) s')
      isplitl [Hh] <;> iassumption)
    (hQ := fun s h c =>
      ⟨h c _ (Gen.mem_uc main_v68 (by decide)),
       (h c _ (Gen.mem_uc main_arg0 (by decide))).trans (Gen.W8_main_arg0 m ρ c),
       (h c _ (Gen.mem_uc main_arg1 (by decide))).trans (Gen.W8_main_arg1 m ρ c),
       (h c _ (Gen.mem_uc main_arg2 (by decide))).trans (Gen.W8_main_arg2 m ρ c),
       (h c _ (Gen.mem_uc main_arg3 (by decide))).trans (Gen.W8_main_arg3 m ρ c),
       (h c _ (Gen.mem_uc main_arg4 (by decide))).trans (Gen.W8_main_arg4 m ρ c),
       (h c _ (Gen.mem_uc main_arg5 (by decide))).trans (Gen.W8_main_arg5 m ρ c),
       (h c _ (Gen.mem_uc main_arg6 (by decide))).trans (Gen.W8_main_arg6 m ρ c),
       (h c _ (Gen.mem_uc main_arg7 (by decide))).trans (Gen.W8_main_arg7 m ρ c),
       (h c _ (Gen.mem_uc main_arg8 (by decide))).trans (Gen.W8_main_arg8 m ρ c),
       (h c _ (Gen.mem_uc main_arg9 (by decide))).trans (Gen.W8_main_arg9 m ρ c),
       (h c _ (Gen.mem_uc main_arg10 (by decide))).trans (Gen.W8_main_arg10 m ρ c),
       (h c _ (Gen.mem_uc main_arg11 (by decide))).trans (Gen.W8_main_arg11 m ρ c),
       (h c _ (Gen.mem_uc main_arg12 (by decide))).trans (Gen.W8_main_arg12 m ρ c),
       (h c _ (Gen.mem_uc main_arg13 (by decide))).trans (Gen.W8_main_arg13 m ρ c),
       (h c _ (Gen.mem_uc main_arg14 (by decide))).trans (Gen.W8_main_arg14 m ρ c)⟩)

end Cert.KernelIdeal.ValueRun

end
-- ==== Proof.Stages.lean ====
/-
  The dense layers of the network, each as ONE function of whole arrays, index by index, on the extended reals.

  An affine layer sends a matrix `x` (rows = nodes or graphs) to `x · wT + b`: entry `(p, q)` is the sum over `k` of
  `x (p, k) * wT (k, q)`, plus the bias row's entry `q`. A graph-convolution layer adds two such products, one of the
  aggregated neighbour features and one of the node's own features, before the bias. A rectified layer takes the
  maximum with the zero word. The extents are parameters; every use is at literal extents.

  The one law used between the two programs: a sum of three terms does not depend on where the bias is added
  (`(A + b) + C = (A + C) + b`), which holds on the extended reals without any finiteness, since their addition is
  commutative and associative.
-/
import Idealize.ShloMosaic.PureOps.Ideal
import Idealize.ShloMosaic.Lib.ValueIdx

noncomputable section

open scoped BigOperators

namespace Cert.Stages

open Idealize.ShloMosaic Idealize.ShloMosaic.ValueIdx

/-- A matrix of extended reals with `n0` rows and `n1` columns. -/
abbrev Mat (n0 n1 : Nat) : Type := FVec Ideal (⟨2, ![n0, n1]⟩ : Shape) .f32

/-- The zero word as an extended real, left unevaluated: both programs compare against the same word. -/
abbrev zeroWord : EReal := Ideal.ofBits .f32 0x00000000#32

/-- Row `p` of `x` against column `q` of `wT`. -/
def dotAt {N K D : Nat} (x : Mat N K) (wT : Mat K D) (p : Fin N) (q : Fin D) : EReal :=
  ∑ k : Fin K, x (ix2 p k) * wT (ix2 k q)

/-- Entry `(p, q)` of the affine layer `x · wT + b`. -/
def affAt {N K D : Nat} (x : Mat N K) (wT : Mat K D) (b : Mat 1 D) (p : Fin N) (q : Fin D) : EReal :=
  dotAt x wT p q + b (ix2 0 q)

/-- The affine layer `x · wT + b`. -/
def affine {N K D : Nat} (x : Mat N K) (wT : Mat K D) (b : Mat 1 D) : Mat N D :=
  fun i => affAt x wT b (i 0) (i 1)

/-- The rectified affine layer `max (x · wT + b) 0`. -/
def affineRelu {N K D : Nat} (x : Mat N K) (wT : Mat K D) (b : Mat 1 D) : Mat N D :=
  fun i => max (affAt x wT b (i 0) (i 1)) zeroWord

/-- Entry `(p, q)` of the graph-convolution layer `(a · wrelT + x · wrootT) + b`. -/
def convAt {N K D : Nat} (a x : Mat N K) (wrelT wrootT : Mat K D) (b : Mat 1 D) (p : Fin N) (q : Fin D) : EReal :=
  (dotAt a wrelT p q + dotAt x wrootT p q) + b (ix2 0 q)

/-- The rectified graph-convolution layer `max ((a · wrelT + x · wrootT) + b) 0`. -/
def convRelu {N K D : Nat} (a x : Mat N K) (wrelT wrootT : Mat K D) (b : Mat 1 D) : Mat N D :=
  fun i => max (convAt a x wrelT wrootT b (i 0) (i 1)) zeroWord

/-- Where the bias is added among three terms does not matter: addition of extended reals is commutative and
    associative, also at the infinities. -/
theorem bias_between (A b C : EReal) : (A + b) + C = (A + C) + b := add_right_comm A b C

end Cert.Stages

end
-- ==== Proof.Spec.lean ====
/-
  The whole network as ONE function of the fifteen argument arrays, on the extended reals.

  Node features start as the two embedding rows of each node's tokens, side by side (`feat0`). A rectified affine
  layer gives 32 features per node (`feat1`). Two rectified graph-convolution layers follow (`feat2`, `feat3`): each
  adds, to a product of the node's own features, a product of the SUM of its in-neighbours' features (`aggregate32`,
  `aggregate64`: gather the source node's row along every edge, add it into the destination node's row). The graphs'
  mean features (`meanPool`: per-graph sums divided by the per-graph node counts, at least one) go through a last
  affine layer (`logits`).

  The gather / scatter-add / pooling chains are the SAME host operations in both programs, applied to whatever node
  features go in; they are named here once as functions of those features and are never opened: both programs are
  shown to feed them equal arrays. The layouts the two programs share (a weight transposed, the indices of the edges)
  are the reference's stages by name.
-/
import proofs.«103520_j88648124991072_1_alg».proof.Proof.Gen.ReferenceIdeal.Read
import proofs.«103520_j88648124991072_1_alg».proof.Proof.Stages

noncomputable section

namespace Cert.Spec

open Cert.ReferenceIdeal Cert.ReferenceIdeal.Read Idealize.ShloMosaic Cert.Stages

/-- An array of 32-bit integers of shape `S`. -/
abbrev IArr (S : Shape) : Type := (⟨S, .i32⟩ : BufTy).Contents (Elt Ideal)
/-- An array of extended reals of shape `S`. -/
abbrev FArr (S : Shape) : Type := (⟨S, .f32⟩ : BufTy).Contents (Elt Ideal)

/-- Per node, the sum of 32-feature rows `x` over the node's incoming edges (`edges` row 0 = sources, row 1 =
    destinations): every edge's source row gathered, then added into its destination's row of a zero array. -/
def aggregate32 (x : FArr S100000x32) (edges : IArr S2x1250000) : FArr S100000x32 :=
  Host.scatterAdd (F := Ideal) (φ := .f32) scatter_S100000x32_S1250000x1_S1250000x32_1_0_0_1 (val_main_v36 (F := Ideal)) (val_main_v37 (F := Ideal) edges)
    (Host.gather gather_S100000x32_S1250000x1_S1250000x32_1_0_n_n_0_1_132 x (val_main_v34 (F := Ideal) edges))

/-- The same sum over incoming edges for 64-feature rows. -/
def aggregate64 (x : FArr S100000x64) (edges : IArr S2x1250000) : FArr S100000x64 :=
  Host.scatterAdd (F := Ideal) (φ := .f32) scatter_S100000x64_S1250000x1_S1250000x64_1_0_0_1 (val_main_v55 (F := Ideal)) (val_main_v56 (F := Ideal) edges)
    (Host.gather gather_S100000x64_S1250000x1_S1250000x64_1_0_n_n_0_1_164 x (val_main_v53 (F := Ideal) edges))

/-- Per graph, the mean of its nodes' 64-feature rows: the rows added into their graph's row (`graphOf`), divided by the
    graph's node count, a count below one replaced by one. -/
def meanPool (x : FArr S100000x64) (graphOf : IArr S100000) : FArr S1024x64 :=
  Host.divf (F := Ideal) (φ := .f32) (Host.scatterAdd (F := Ideal) (φ := .f32) scatter_S1024x64_S100000x1_S100000x64_1_0_0_1 (val_main_v67 (F := Ideal)) (val_main_v68 (F := Ideal) graphOf) x)
    (val_main_v77 (F := Ideal) graphOf)

section
variable (a0 : IArr S100000x2) (a1 : IArr S2x1250000) (a2 : IArr S100000) (a3 a4 : FArr S16x8) (a5 : FArr S32x16) (a6 : FArr S32)
  (a7 : FArr S64x32) (a8 : FArr S64) (a9 : FArr S64x32) (a10 : FArr S64x64) (a11 : FArr S64) (a12 : FArr S64x64)
  (a13 : FArr S10x64) (a14 : FArr S10)

/-- Each node's two embedding rows side by side: 16 features. -/
def feat0 : FArr S100000x16 := val_main_v22 (F := Ideal) a0 a3 a4

/-- After the rectified affine layer: 32 features per node. -/
def feat1 : FArr S100000x32 :=
  affineRelu (N := 100000) (K := 16) (D := 32) (feat0 a0 a3 a4) (val_main_v23 (F := Ideal) a5) (val_main_v25 (F := Ideal) a6)

/-- After the first rectified graph convolution: 64 features per node. -/
def feat2 : FArr S100000x64 :=
  convRelu (N := 100000) (K := 32) (D := 64) (aggregate32 (feat1 a0 a3 a4 a5 a6) a1) (feat1 a0 a3 a4 a5 a6)
    (val_main_v39 (F := Ideal) a7) (val_main_v44 (F := Ideal) a9) (val_main_v41 (F := Ideal) a8)

/-- After the second rectified graph convolution: 64 features per node. -/
def feat3 : FArr S100000x64 :=
  convRelu (N := 100000) (K := 64) (D := 64) (aggregate64 (feat2 a0 a1 a3 a4 a5 a6 a7 a8 a9) a1) (feat2 a0 a1 a3 a4 a5 a6 a7 a8 a9)
    (val_main_v58 (F := Ideal) a10) (val_main_v63 (F := Ideal) a12) (val_main_v60 (F := Ideal) a11)

/-- The network's result: per graph, the affine classifier of its mean node features. -/
def logits : FArr S1024x10 :=
  affine (N := 1024) (K := 64) (D := 10) (meanPool (feat3 a0 a1 a3 a4 a5 a6 a7 a8 a9 a10 a11 a12) a2)
    (val_main_v79 (F := Ideal) a13) (val_main_v81 (F := Ideal) a14)

end

end Cert.Spec

end
-- ==== Proof.Kept.lean ====
/-
  Which buffers still hold, at a later segment boundary, what they held earlier; and what the first stretch of host
  operations leaves.

  The program is four stretches of host operations, each followed by one blocked region. Write `W0` for a core's buffer
  contents at launch, `W1` for the contents after the first stretch, `W2` after the first region, and so on to `W8`.
  A stretch changes only the buffers its operations write, and a region changes only its own arrays; so a buffer that
  is neither written by the stretches nor an array of the regions between two boundaries holds the same contents at
  both. Three kinds of statement follow from that.

  • An argument array read late (the graph assignment and the classifier's weight and bias at `W6`, the second
    convolution's weights and bias at `W4`, the first convolution's at `W2`) still holds its launch contents there.
  • The edge list's source row and destination row are computed once, by the first stretch (a slice of the edge list,
    then a reshape to a vector), and are read again by the second and third stretches: at `W1`, `W2` and `W4` they are
    the reference program's values of the same two operations on the launch edge list. A region's result is not touched by
    the stretch after it.
  • What else the first stretch leaves, as the reference program's stage values of the launch arguments: the node
    features (two embedding tables gathered at the two index columns, each index wrapped when negative, the rows joined
    side by side), the first layer's weight transposed, and the first layer's bias as a one-row matrix. The two programs
    print the first two by the same operations. For the bias the programs differ in spelling only: one reshapes the
    vector `[n]` to `[1, n]`, the other broadcasts it along the second axis of `[1, n]`; both read entry `q` of the vector
    at `(0, q)`, so they are one function (`bias_row32`, and the same at widths 64 and 10).
-/
import proofs.«103520_j88648124991072_1_alg».proof.Proof.Gen.KernelIdeal.Frame
import proofs.«103520_j88648124991072_1_alg».proof.Proof.Gen.ReferenceIdeal.Read
import Idealize.ShloMosaic.Lib.StableHlo.Run
import Idealize.ShloMosaic.Lib.ValueLayout
import Idealize.ShloMosaic.Lib.ValueIdx
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil)

variable (m : (ℓ : Loc nD τ sig) → Buf (Elt Ideal) ℓ) (ρ : Dev nD → PrngReg) (c : Dev nD)

/-! ## What each stretch of host operations writes -/

/-- The buffers the first stretch writes, in program order. -/
abbrev written0 : List (Ref sig .tc) :=
  [main_v0, main_v1, main_v2, main_v3, main_v4, main_v5, main_c, main_v6, main_v7, main_c_0, main_v8, main_v9, main_v10,
   main_v11, main_v12, main_v13, main_v14, main_c_1, main_v15, main_v16, main_c_2, main_v17, main_v18, main_v19, main_v20,
   main_v21, main_v22, main_v23, main_v24]
/-- The buffers the second stretch writes. -/
abbrev written1 : List (Ref sig .tc) :=
  [main_c_3, main_v26, main_v27, main_c_4, main_v28, main_v29, main_v30, main_v31, main_v32, main_cst, main_v33, main_v34,
   main_v35, main_v36, main_v37, main_v38]
/-- The buffers the third stretch writes. -/
abbrev written2 : List (Ref sig .tc) :=
  [main_c_5, main_v40, main_v41, main_c_6, main_v42, main_v43, main_v44, main_v45, main_v46, main_cst_7, main_v47, main_v48,
   main_v49, main_v50, main_v51, main_v52]

/-- One written buffer, among a list that names it. -/
theorem sub_written {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact sub_written (by decide)
theorem writes1 : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact sub_written (by decide)
theorem writes2 : (hostOps2 : List (HloOp τ sig (Elt Ideal))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact sub_written (by decide)

/-- A buffer the first stretch does not write holds after it what it held at launch. -/
theorem keep0 (b : Ref sig .tc) (hb : b ∉ written0) :
    Gen.W1 m ρ c (Proc.devRef .tc b) = Gen.W0 m ρ c (Proc.devRef .tc b) :=
  StableHlo.after_of_writes_sub hostOps0 (Gen.W0 m ρ c) writes0 hb
/-- A buffer the second stretch does not write holds after it what it held at the first region's exit. -/
theorem keep1 (b : Ref sig .tc) (hb : b ∉ written1) :
    Gen.W3 m ρ c (Proc.devRef .tc b) = Gen.W2 m ρ c (Proc.devRef .tc b) :=
  StableHlo.after_of_writes_sub hostOps1 (Gen.W2 m ρ c) writes1 hb
/-- A buffer the third stretch does not write holds after it what it held at the second region's exit. -/
theorem keep2 (b : Ref sig .tc) (hb : b ∉ written2) :
    Gen.W5 m ρ c (Proc.devRef .tc b) = Gen.W4 m ρ c (Proc.devRef .tc b) :=
  StableHlo.after_of_writes_sub hostOps2 (Gen.W4 m ρ c) writes2 hb

/-! ## Back to the launch contents -/

/-- Not written by the first stretch and no array of the first region: at the first region's exit, the launch contents. -/
theorem W2_of_launch (b : Ref sig .tc) (h0 : b ∉ written0) (r0 : ∀ w, Pipeline.arrRef spec0 w ≠ b) :
    Gen.W2 m ρ c (Proc.devRef .tc b) = Gen.W0 m ρ c (Proc.devRef .tc b) :=
  (Gen.W2_of_ne m ρ c b r0).trans (keep0 m ρ c b h0)
/-- The same through the second stretch and the second region. -/
theorem W4_of_launch (b : Ref sig .tc) (h0 : b ∉ written0) (r0 : ∀ w, Pipeline.arrRef spec0 w ≠ b)
    (h1 : b ∉ written1) (r1 : ∀ w, Pipeline.arrRef spec1 w ≠ b) :
    Gen.W4 m ρ c (Proc.devRef .tc b) = Gen.W0 m ρ c (Proc.devRef .tc b) :=
  (Gen.W4_of_ne m ρ c b r1).trans ((keep1 m ρ c b h1).trans (W2_of_launch m ρ c b h0 r0))
/-- The same through the third stretch and the third region. -/
theorem W6_of_launch (b : Ref sig .tc) (h0 : b ∉ written0) (r0 : ∀ w, Pipeline.arrRef spec0 w ≠ b)
    (h1 : b ∉ written1) (r1 : ∀ w, Pipeline.arrRef spec1 w ≠ b)
    (h2 : b ∉ written2) (r2 : ∀ w, Pipeline.arrRef spec2 w ≠ b) :
    Gen.W6 m ρ c (Proc.devRef .tc b) = Gen.W0 m ρ c (Proc.devRef .tc b) :=
  (Gen.W6_of_ne m ρ c b r2).trans ((keep2 m ρ c b h2).trans (W4_of_launch m ρ c b h0 r0 h1 r1))

/-! ## The arguments read late still hold their launch contents -/

theorem W6_arg2 : Gen.W6 m ρ c (Proc.devRef .tc main_arg2) = m ((c : Thread nD τ).loc main_arg2) :=
  W6_of_launch m ρ c main_arg2 (by decide) (by decide) (by decide) (by decide) (by decide) (by decide)
theorem W6_arg13 : Gen.W6 m ρ c (Proc.devRef .tc main_arg13) = m ((c : Thread nD τ).loc main_arg13) :=
  W6_of_launch m ρ c main_arg13 (by decide) (by decide) (by decide) (by decide) (by decide) (by decide)
theorem W6_arg14 : Gen.W6 m ρ c (Proc.devRef .tc main_arg14) = m ((c : Thread nD τ).loc main_arg14) :=
  W6_of_launch m ρ c main_arg14 (by decide) (by decide) (by decide) (by decide) (by decide) (by decide)

theorem W4_arg10 : Gen.W4 m ρ c (Proc.devRef .tc main_arg10) = m ((c : Thread nD τ).loc main_arg10) :=
  W4_of_launch m ρ c main_arg10 (by decide) (by decide) (by decide) (by decide)
theorem W4_arg11 : Gen.W4 m ρ c (Proc.devRef .tc main_arg11) = m ((c : Thread nD τ).loc main_arg11) :=
  W4_of_launch m ρ c main_arg11 (by decide) (by decide) (by decide) (by decide)
theorem W4_arg12 : Gen.W4 m ρ c (Proc.devRef .tc main_arg12) = m ((c : Thread nD τ).loc main_arg12) :=
  W4_of_launch m ρ c main_arg12 (by decide) (by decide) (by decide) (by decide)

theorem W2_arg7 : Gen.W2 m ρ c (Proc.devRef .tc main_arg7) = m ((c : Thread nD τ).loc main_arg7) :=
  W2_of_launch m ρ c main_arg7 (by decide) (by decide)
theorem W2_arg8 : Gen.W2 m ρ c (Proc.devRef .tc main_arg8) = m ((c : Thread nD τ).loc main_arg8) :=
  W2_of_launch m ρ c main_arg8 (by decide) (by decide)
theorem W2_arg9 : Gen.W2 m ρ c (Proc.devRef .tc main_arg9) = m ((c : Thread nD τ).loc main_arg9) :=
  W2_of_launch m ρ c main_arg9 (by decide) (by decide)

/-! ## The edge list's two rows: written once, read three times -/

/-- The source row after the first stretch: the slice of the edge list's row 0, reshaped to a vector. -/
theorem W1_v1 : Gen.W1 m ρ c (Proc.devRef .tc main_v1)
    = Cert.ReferenceIdeal.Read.val_main_v1 (F := Ideal) (m ((c : Thread nD τ).loc main_arg1)) := by
  show StableHlo.after hostOps0 (Gen.W0 m ρ c) (Proc.devRef .tc main_v1) = _
  after_results
  unfold Cert.ReferenceIdeal.Read.val_main_v1 Cert.ReferenceIdeal.Read.val_main_v0
  rfl
/-- The destination row after the first stretch: the slice of the edge list's row 1, reshaped to a vector. -/
theorem W1_v3 : Gen.W1 m ρ c (Proc.devRef .tc main_v3)
    = Cert.ReferenceIdeal.Read.val_main_v3 (F := Ideal) (m ((c : Thread nD τ).loc main_arg1)) := by
  show StableHlo.after hostOps0 (Gen.W0 m ρ c) (Proc.devRef .tc main_v3) = _
  after_results
  unfold Cert.ReferenceIdeal.Read.val_main_v3 Cert.ReferenceIdeal.Read.val_main_v2
  rfl

/-- The first region does not touch the source row. -/
theorem W2_v1 : Gen.W2 m ρ c (Proc.devRef .tc main_v1)
    = Cert.ReferenceIdeal.Read.val_main_v1 (F := Ideal) (m ((c : Thread nD τ).loc main_arg1)) :=
  (Gen.W2_of_ne m ρ c main_v1 (by decide)).trans (W1_v1 m ρ c)
/-- The first region does not touch the destination row. -/
theorem W2_v3 : Gen.W2 m ρ c (Proc.devRef .tc main_v3)
    = Cert.ReferenceIdeal.Read.val_main_v3 (F := Ideal) (m ((c : Thread nD τ).loc main_arg1)) :=
  (Gen.W2_of_ne m ρ c main_v3 (by decide)).trans (W1_v3 m ρ c)
/-- Nor do the second stretch and the second region touch the source row. -/
theorem W4_v1 : Gen.W4 m ρ c (Proc.devRef .tc main_v1)
    = Cert.ReferenceIdeal.Read.val_main_v1 (F := Ideal) (m ((c : Thread nD τ).loc main_arg1)) :=
  (Gen.W4_of_ne m ρ c main_v1 (by decide)).trans ((keep1 m ρ c main_v1 (by decide)).trans (W2_v1 m ρ c))
/-- Nor the destination row. -/
theorem W4_v3 : Gen.W4 m ρ c (Proc.devRef .tc main_v3)
    = Cert.ReferenceIdeal.Read.val_main_v3 (F := Ideal) (m ((c : Thread nD τ).loc main_arg1)) :=
  (Gen.W4_of_ne m ρ c main_v3 (by decide)).trans ((keep1 m ρ c main_v3 (by decide)).trans (W2_v3 m ρ c))

/-! ## A region's result is not touched by the stretch after it -/

theorem W3_v25 : Gen.W3 m ρ c (Proc.devRef .tc main_v25) = Gen.W2 m ρ c (Proc.devRef .tc main_v25) :=
  keep1 m ρ c main_v25 (by decide)
theorem W5_v39 : Gen.W5 m ρ c (Proc.devRef .tc main_v39) = Gen.W4 m ρ c (Proc.devRef .tc main_v39) :=
  keep2 m ρ c main_v39 (by decide)

/-! ## A bias vector as a one-row matrix: reshaped or broadcast, the same function -/

/-- Width 32: the vector `[32]` reshaped to `[1, 32]` is the vector broadcast along the second axis of `[1, 32]`: both
    read entry `q` at `(u, q)`. -/
theorem bias_row32 (x : (⟨S32, .f32⟩ : BufTy).Contents (Elt Ideal)) :
    shapeCast S1x32 x shapeCasts_S32_S1x32 = Cert.ReferenceIdeal.Read.val_main_v25 (F := Ideal) x := by
  funext j
  obtain ⟨u, q, rfl⟩ : ∃ (u : Fin 1) (q : Fin 32), j = ValueIdx.ix2 u q := ⟨j 0, j 1, ValueIdx.eq_ix2 j⟩
  refine (ValueIdx.shapeCast_a_1a_apply x shapeCasts_S32_S1x32 u q).trans ?_
  refine Eq.trans ?_ (Cert.ReferenceIdeal.Read.val_main_v25_apply x (ValueIdx.ix2 u q)).symm
  exact congrArg x (funext fun a => match a with | ⟨0, _⟩ => rfl)
/-- Width 64. -/
theorem bias_row64 (x : (⟨S64, .f32⟩ : BufTy).Contents (Elt Ideal)) :
    shapeCast S1x64 x shapeCasts_S64_S1x64 = Cert.ReferenceIdeal.Read.val_main_v41 (F := Ideal) x := by
  funext j
  obtain ⟨u, q, rfl⟩ : ∃ (u : Fin 1) (q : Fin 64), j = ValueIdx.ix2 u q := ⟨j 0, j 1, ValueIdx.eq_ix2 j⟩
  refine (ValueIdx.shapeCast_a_1a_apply x shapeCasts_S64_S1x64 u q).trans ?_
  refine Eq.trans ?_ (Cert.ReferenceIdeal.Read.val_main_v41_apply x (ValueIdx.ix2 u q)).symm
  exact congrArg x (funext fun a => match a with | ⟨0, _⟩ => rfl)
/-- Width 10. -/
theorem bias_row10 (x : (⟨S10, .f32⟩ : BufTy).Contents (Elt Ideal)) :
    shapeCast S1x10 x shapeCasts_S10_S1x10 = Cert.ReferenceIdeal.Read.val_main_v81 (F := Ideal) x := by
  funext j
  obtain ⟨u, q, rfl⟩ : ∃ (u : Fin 1) (q : Fin 10), j = ValueIdx.ix2 u q := ⟨j 0, j 1, ValueIdx.eq_ix2 j⟩
  refine (ValueIdx.shapeCast_a_1a_apply x shapeCasts_S10_S1x10 u q).trans ?_
  refine Eq.trans ?_ (Cert.ReferenceIdeal.Read.val_main_v81_apply x (ValueIdx.ix2 u q)).symm
  exact congrArg x (funext fun a => match a with | ⟨0, _⟩ => rfl)

/-! ## What else the first stretch leaves -/

set_option maxHeartbeats 4000000 in
/-- The node features: each of the two index columns is sliced off, reshaped to a vector, wrapped (16 is added where the
    index is negative), made a column again and used to gather rows of its embedding table; the two gathered arrays are
    joined side by side. The two programs print these operations alike, so each half is the reference's value by
    unfolding its stages down to the arguments. -/
theorem W1_v22 : Gen.W1 m ρ c (Proc.devRef .tc main_v22)
    = Cert.ReferenceIdeal.Read.val_main_v22 (F := Ideal) (m ((c : Thread nD τ).loc main_arg0))
        (m ((c : Thread nD τ).loc main_arg3)) (m ((c : Thread nD τ).loc main_arg4)) := by
  show StableHlo.after hostOps0 (Gen.W0 m ρ c) (Proc.devRef .tc main_v22) = _
  unfold Cert.ReferenceIdeal.Read.val_main_v22
  after_results_simp
  refine congrArg₂ (fun a b : (⟨S100000x8, .f32⟩ : BufTy).Contents (Elt Ideal) =>
    concatenate S100000x16 1 [⟨S100000x8, a⟩, ⟨S100000x8, b⟩] concatenates_S100000x8_S100000x8_S100000x16_d1) ?_ ?_
  · after_results_simp
    unfold Cert.ReferenceIdeal.Read.val_main_v12 Cert.ReferenceIdeal.Read.val_main_v11 Cert.ReferenceIdeal.Read.val_main_v10
      Cert.ReferenceIdeal.Read.val_main_v7 Cert.ReferenceIdeal.Read.val_main_v9 Cert.ReferenceIdeal.Read.val_main_v6
      Cert.ReferenceIdeal.Read.val_main_v8 Cert.ReferenceIdeal.Read.val_main_v5 Cert.ReferenceIdeal.Read.val_main_v4
      Cert.ReferenceIdeal.Read.val_main_c Cert.ReferenceIdeal.Read.val_main_c_0
    rfl
  · after_results_simp
    unfold Cert.ReferenceIdeal.Read.val_main_v21 Cert.ReferenceIdeal.Read.val_main_v20 Cert.ReferenceIdeal.Read.val_main_v19
      Cert.ReferenceIdeal.Read.val_main_v16 Cert.ReferenceIdeal.Read.val_main_v18 Cert.ReferenceIdeal.Read.val_main_v15
      Cert.ReferenceIdeal.Read.val_main_v17 Cert.ReferenceIdeal.Read.val_main_v14 Cert.ReferenceIdeal.Read.val_main_v13
      Cert.ReferenceIdeal.Read.val_main_c_1 Cert.ReferenceIdeal.Read.val_main_c_2
    rfl

/-- The first layer's weight, transposed. -/
theorem W1_v23 : Gen.W1 m ρ c (Proc.devRef .tc main_v23)
    = Cert.ReferenceIdeal.Read.val_main_v23 (F := Ideal) (m ((c : Thread nD τ).loc main_arg5)) := by
  show StableHlo.after hostOps0 (Gen.W0 m ρ c) (Proc.devRef .tc main_v23) = _
  after_results
  unfold Cert.ReferenceIdeal.Read.val_main_v23
  rfl

/-- The first layer's bias as a one-row matrix. -/
theorem W1_v24 : Gen.W1 m ρ c (Proc.devRef .tc main_v24)
    = Cert.ReferenceIdeal.Read.val_main_v25 (F := Ideal) (m ((c : Thread nD τ).loc main_arg6)) := by
  show StableHlo.after hostOps0 (Gen.W0 m ρ c) (Proc.devRef .tc main_v24) = _
  after_results
  exact bias_row32 (m ((c : Thread nD τ).loc main_arg6))

end Cert.KernelIdeal.Kept

end
-- ==== Proof.Region0.lean ====
/-
  The first dense layer, as the region leaves it: for ANY contents `V` of the buffers when the region is entered, the
  output array ends holding the rectified affine layer of the three input arrays (node features, transposed weight,
  bias row), entry by entry.

  Each of the 20 grid points reads rows `5000 t … 5000 t + 4999` of the features, the whole weight and the whole bias
  row, and writes the same rows of the result. At entry `(p, q)` of a block the body's value is the matrix unit's product
  into a zero accumulator, that is the sum over `k` of feature `(p, k)` times weight `(k, q)` (the roundings to a
  shorter format are the identity on the extended reals), plus the bias row's entry `q`, then the maximum with zero. So
  block `t` of the result is block `t` of one function of the whole arrays, and the 20 blocks cover every row.
-/
import proofs.«103520_j88648124991072_1_alg».proof.Proof.Gen.KernelIdeal.Frame
import proofs.«103520_j88648124991072_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Stages
open Idealize.ShloMosaic.Pipeline (Dat Cfg Window)

/-- The origin of a block, as a function. -/
theorem origin_zero : (![0, 0] : Fin 2 → Nat) = fun _ => 0 := funext fun a => by fin_cases a <;> rfl

/-! ## The body's value at an entry -/

/-- The matrix unit's product into a zero accumulator, at entry `(p, q)`: row `p` against column `q`. -/
theorem product_at (x : FVec Ideal S5000x16 .bf16) (w : FVec Ideal S16x32 .bf16) (p : Fin 5000) (q : Fin 32) :
    matmul dot_S5000x16_S16x32_S5000x32_1_0_0_1_n_n none x w (constant S5000x32 .f32 0x00000000#32) (ix2 p q)
      = ∑ k : Fin 16, x (ix2 p k) * w (ix2 k q) := by
  refine (Ideal.matmul_constant_zero_apply dot_S5000x16_S16x32_S5000x32_1_0_0_1_n_n none x w (ix2 p q)).trans ?_
  rw [← Equiv.sum_comp (contrEquiv1 dot_S5000x16_S16x32_S5000x32_1_0_0_1_n_n 16 rfl rfl).symm]
  refine Finset.sum_congr rfl fun k _ => ?_
  have hk := contrEquiv1_symm_val dot_S5000x16_S16x32_S5000x32_1_0_0_1_n_n 16 rfl rfl k
  have el : dot_S5000x16_S16x32_S5000x32_1_0_0_1_n_n.lhsIdx (ix2 p q) ((contrEquiv1 dot_S5000x16_S16x32_S5000x32_1_0_0_1_n_n 16 rfl rfl).symm k) = ix2 p k :=
    funext fun a => Fin.ext (by
      match a with
      | ⟨0, _⟩ =>
        show (dot_S5000x16_S16x32_S5000x32_1_0_0_1_n_n.lhsIdx (ix2 p q) ((contrEquiv1 dot_S5000x16_S16x32_S5000x32_1_0_0_1_n_n 16 rfl rfl).symm k) 0).val = p.val
        unfold DotDims.lhsIdx
        rw [dif_neg (show ¬(0 : Fin S5000x16.rank) ∈ dot_S5000x16_S16x32_S5000x32_1_0_0_1_n_n.lhsBatch by decide),
          dif_pos (show (0 : Fin S5000x16.rank) ∈ dot_S5000x16_S16x32_S5000x32_1_0_0_1_n_n.lhsNonContracting by decide)]
        rfl
      | ⟨1, _⟩ => exact (dot_S5000x16_S16x32_S5000x32_1_0_0_1_n_n.lhsIdx_val_of_single rfl _ _).trans hk)
  have er : dot_S5000x16_S16x32_S5000x32_1_0_0_1_n_n.rhsIdx (ix2 p q) ((contrEquiv1 dot_S5000x16_S16x32_S5000x32_1_0_0_1_n_n 16 rfl rfl).symm k) = ix2 k q :=
    funext fun a => Fin.ext (by
      match a with
      | ⟨0, _⟩ => exact (dot_S5000x16_S16x32_S5000x32_1_0_0_1_n_n.rhsIdx_val_of_single rfl _ _).trans hk
      | ⟨1, _⟩ =>
        show (dot_S5000x16_S16x32_S5000x32_1_0_0_1_n_n.rhsIdx (ix2 p q) ((contrEquiv1 dot_S5000x16_S16x32_S5000x32_1_0_0_1_n_n 16 rfl rfl).symm k) 1).val = q.val
        unfold DotDims.rhsIdx
        rw [dif_neg (show ¬(1 : Fin S16x32.rank) ∈ dot_S5000x16_S16x32_S5000x32_1_0_0_1_n_n.rhsBatch by decide),
          dif_pos (show (1 : Fin S16x32.rank) ∈ dot_S5000x16_S16x32_S5000x32_1_0_0_1_n_n.rhsNonContracting by decide)]
        rfl)
  rw [el, er]

/-- The bias row spread over the block's rows, at entry `(p, q)`: the row's entry `q`. -/
theorem bias_at (b : FVec Ideal S1x32 .f32) (p : Fin 5000) (q : Fin 32) :
    broadcastTo S5000x32 b broadcasts_S1x32_S5000x32 (ix2 p q) = b (ix2 0 q) :=
  broadcastTo_apply b broadcasts_S1x32_S5000x32 (ix2 p q) (ix2 0 q) (fun a => by
    match a with
    | ⟨0, _⟩ => rfl
    | ⟨1, _⟩ => rfl)

/-- The body's stored value at entry `(p, q)` of a block: the rectified affine entry of the loaded blocks. -/
theorem payload_at (x0 : Vec Ideal S5000x16 .f32) (x1 : Vec Ideal S16x32 .f32) (x2 : Vec Ideal S1x32 .f32)
    (p : Fin 5000) (q : Fin 32) :
    k0_pay1 (F := Ideal) x0 x1 x2 (ix2 p q) = max (affAt (N := 5000) (K := 16) (D := 32) x0 x1 x2 p q) zeroWord := by
  unfold k0_pay1
  simp only [shapeCast_self]
  rw [maximumf_apply, addf_apply, product_at, bias_at]
  rfl

/-! ## From blocks to the array -/

section
variable (V : (c : Dev nD) → (b : Ref sig .tc) → Buf (Elt Ideal) ((c : Thread nD τ).loc b))

/-- The layer of the whole arrays as the region finds them. -/
abbrev layer (c : Dev nD) : Mat 100000 32 :=
  affineRelu (N := 100000) (K := 16) (D := 32) (V c main_v22) (V c main_v23) (V c main_v24)

/-- The printed index maps over the grid: at point `t` the feature block and the result block are block `t` of the rows;
    the weight and the bias row are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point is one of 20. -/
theorem point_lt (t : Fin cfg0.N) : t.val < 20 := N_0 ▸ t.isLt

/-- Row `p` of block `t` is row `5000 t + p` of the array. -/
def rowOf (t : Fin cfg0.N) (p : Fin 5000) : Fin 100000 := ⟨t.val * 5000 + p.val, by have := point_lt t; have := p.isLt; omega⟩

/-- The feature block at point `t`, at `(p, k)`: the array's row `5000 t + p`. -/
theorem read_features (c : Dev nD) (t : Fin cfg0.N) (p : Fin 5000) (k : Fin 16) :
    iblk0 V c 0 t (ix2 p k) = V c main_v22 (ix2 (rowOf t p) k) := by
  obtain ⟨e00, e01, -⟩ := idx_facts t
  show V c main_v22 (((cfg0.win 0).blk t).view.emb (ix2 p k)) = V c main_v22 (ix2 (rowOf t p) k)
  refine congrArg (V c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 16 + 1 * k.val = k.val; omega

/-- The weight block at any point is the whole weight. -/
theorem read_weight (c : Dev nD) (t : Fin cfg0.N) (k : Fin 16) (q : Fin 32) :
    iblk0 V c 1 t (ix2 k q) = V c main_v23 (ix2 k q) := by
  obtain ⟨-, -, e10, e11, -⟩ := idx_facts t
  show V c main_v23 (((cfg0.win 1).blk t).view.emb (ix2 k q)) = V c main_v23 (ix2 k q)
  refine congrArg (V c main_v23) (funext fun a => Fin.ext ?_)
  match a with
  | ⟨0, _⟩ => show win0_1.index t (0 : Fin 2) * 16 + 1 * k.val = k.val; omega
  | ⟨1, _⟩ => show win0_1.index t (1 : Fin 2) * 32 + 1 * q.val = q.val; omega

/-- The bias block at any point is the whole bias row. -/
theorem read_bias (c : Dev nD) (t : Fin cfg0.N) (q : Fin 32) :
    iblk0 V c 2 t (ix2 0 q) = V c main_v24 (ix2 0 q) := by
  obtain ⟨-, -, -, -, e20, e21, -⟩ := idx_facts t
  show V c main_v24 (((cfg0.win 2).blk t).view.emb (ix2 0 q)) = V c main_v24 (ix2 0 q)
  refine congrArg (V c main_v24) (funext fun a => Fin.ext ?_)
  match a with
  | ⟨0, _⟩ => show win0_2.index t (0 : Fin 2) * 1 + 1 * 0 = 0; omega
  | ⟨1, _⟩ => show win0_2.index t (1 : Fin 2) * 32 + 1 * q.val = q.val; omega

/-- Entry `(p, q)` of the result block at point `t` sits at row `5000 t + p`, column `q` of the array. -/
theorem result_at (c : Dev nD) (t : Fin cfg0.N) (p : Fin 5000) (q : Fin 32) :
    ((cfg0.win 3).blk t).view.read (Elt Ideal) (layer V c) (ix2 p q) = layer V c (ix2 (rowOf t p) q) := by
  obtain ⟨-, -, -, -, -, -, e30, e31⟩ := idx_facts t
  show layer V c (((cfg0.win 3).blk t).view.emb (ix2 p q)) = layer V c (ix2 (rowOf t p) q)
  refine congrArg (layer V c) (funext fun a => Fin.ext ?_)
  match a with
  | ⟨0, _⟩ => show win0_3.index t (0 : Fin 2) * 5000 + 1 * p.val = t.val * 5000 + p.val; omega
  | ⟨1, _⟩ => show win0_3.index t (1 : Fin 2) * 32 + 1 * q.val = q.val; omega

/-- WHAT POINT `t` WRITES BACK is block `t` of the layer of the whole arrays. -/
theorem flushed_eq (c : Dev nD) (t : Fin cfg0.N) :
    (dat0 (F := Ideal) V c).flushed 3 t = ((cfg0.win 3).blk t).view.read (Elt Ideal) (layer V c) := by
  show (cfg0.win 3).cut (grid0.coords t) ((dat0 (F := Ideal) V c).after 3 t) = _
  rw [after0_3]
  unfold out0_3
  rw [View.canon_unit_zero origin_zero]
  simp only [View.ld_unit_zero (S := S5000x16) origin_zero, View.ld_unit_zero (S := S16x32) origin_zero,
    View.ld_unit_zero (S := S1x32) origin_zero]
  funext j
  obtain ⟨p, q, rfl⟩ : ∃ (p : Fin 5000) (q : Fin 32), j = ix2 p q := ⟨j 0, j 1, eq_ix2 j⟩
  refine (payload_at (iblk0 V c 0 t) (iblk0 V c 1 t) (iblk0 V c 2 t) p q).trans ?_
  rw [result_at V c t p q]
  show max (affAt (N := 5000) (K := 16) (D := 32) (iblk0 V c 0 t) (iblk0 V c 1 t) (iblk0 V c 2 t) p q) zeroWord
    = max (affAt (N := 100000) (K := 16) (D := 32) (V c main_v22) (V c main_v23) (V c main_v24) (rowOf t p) q) zeroWord
  refine congrArg (fun z => max z zeroWord) ?_
  unfold affAt dotAt
  rw [read_bias V c t q]
  refine congrArg (· + V c main_v24 (ix2 0 q)) (Finset.sum_congr rfl fun k _ => ?_)
  rw [read_features V c t p k, read_weight V c t k q]

/-- An index of the array is in point `t`'s result block iff each coordinate is in the block's range on its axis. -/
theorem mem_blk (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v25).slice (win0_3.rect t)).set ↔ _
  rw [View.set_slice_whole, Rect.mem_set_unit]
  exact Iff.rfl

/-- Every entry of the result is written by the point that owns its row: row `r` belongs to point `r / 5000`. -/
theorem covered (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨-, -, -, -, -, -, e30, e31⟩ := idx_facts t
  have ht : t.val = (i 0).val / 5000 := rfl
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 32 ≤ (i 1).val ∧ (i 1).val < win0_3.index t (1 : Fin 2) * 32 + 32
    omega

/-- THE ARRAY after the region: the rectified affine layer of the arrays the region was entered with. -/
theorem final (c : Dev nD) : (dat0 (F := Ideal) V c).arrAt 3 cfg0.N = layer V c :=
  (dat0 (F := Ideal) V c).arrAt_eq_of_cover 3 (layer V c) (fun t _ => flushed_eq V c t) (covered)

end

end Cert.KernelIdeal.Region0

end
-- ==== Proof.Region1.lean ====
/-
  The first graph-convolution layer, as its region leaves it: for ANY contents `V` of the buffers when the region is
  entered, the output array ends holding, entry by entry, the rectified convolution of five input arrays: the summed
  features of each node's in-neighbours, the node's own features (both 32 wide), one transposed weight for each of
  the two (32 by 64), and a bias row.

  The 100,000 rows are cut into 20 blocks of 5000. Grid point `t` takes block `t` of the neighbour sums and block `t` of
  the own features, both weights and the bias row whole, and writes block `t` of the result. At entry `(p, q)` of a block
  the body forms two matrix-unit products into zero accumulators: the sum over `k` of neighbour sum `(p, k)` times its
  weight `(k, q)`, and the same for the own features and their weight (shortening a word to the narrower format does
  nothing on the extended reals). It adds the two, then the bias row's entry `q`, then takes the maximum with zero.
  This is the convolution entry with its terms in the order the layer's definition has them, so block `t` of the
  result is block `t` of one function of the whole arrays, and the 20 blocks leave no row out.
-/
import proofs.«103520_j88648124991072_1_alg».proof.Proof.Gen.KernelIdeal.Frame
import proofs.«103520_j88648124991072_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Stages
open Idealize.ShloMosaic.Pipeline (Dat Cfg Window)

/-- The origin of a block, as a function. -/
theorem origin_zero : (![0, 0] : Fin 2 → Nat) = fun _ => 0 := funext fun a => by fin_cases a <;> rfl

/-! ## The body's value at an entry -/

/-- One matrix-unit product into a zero accumulator, at entry `(p, q)`: row `p` of the left factor against column `q`
    of the right one, a sum of 32 terms. Both products of the body have this form. -/
theorem product_at (x : FVec Ideal S5000x32 .bf16) (w : FVec Ideal S32x64 .bf16) (p : Fin 5000) (q : Fin 64) :
    matmul dot_S5000x32_S32x64_S5000x64_1_0_0_1_n_n none x w (constant S5000x64 .f32 0x00000000#32) (ix2 p q)
      = ∑ k : Fin 32, x (ix2 p k) * w (ix2 k q) := by
  refine (Ideal.matmul_constant_zero_apply dot_S5000x32_S32x64_S5000x64_1_0_0_1_n_n none x w (ix2 p q)).trans ?_
  rw [← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k :=
    funext fun a => Fin.ext (by
      match a with
      | ⟨0, _⟩ =>
        show (dot_S5000x32_S32x64_S5000x64_1_0_0_1_n_n.lhsIdx (ix2 p q) ((contrEquiv1 dot_S5000x32_S32x64_S5000x64_1_0_0_1_n_n 32 rfl rfl).symm k) 0).val = p.val
        unfold DotDims.lhsIdx
        rw [dif_neg (show ¬(0 : Fin S5000x32.rank) ∈ dot_S5000x32_S32x64_S5000x64_1_0_0_1_n_n.lhsBatch by decide),
          dif_pos (show (0 : Fin S5000x32.rank) ∈ dot_S5000x32_S32x64_S5000x64_1_0_0_1_n_n.lhsNonContracting by decide)]
        rfl
      | ⟨1, _⟩ => exact (dot_S5000x32_S32x64_S5000x64_1_0_0_1_n_n.lhsIdx_val_of_single rfl _ _).trans hk)
  have er : dot_S5000x32_S32x64_S5000x64_1_0_0_1_n_n.rhsIdx (ix2 p q) ((contrEquiv1 dot_S5000x32_S32x64_S5000x64_1_0_0_1_n_n 32 rfl rfl).symm k) = ix2 k q :=
    funext fun a => Fin.ext (by
      match a with
      | ⟨0, _⟩ => exact (dot_S5000x32_S32x64_S5000x64_1_0_0_1_n_n.rhsIdx_val_of_single rfl _ _).trans hk
      | ⟨1, _⟩ =>
        show (dot_S5000x32_S32x64_S5000x64_1_0_0_1_n_n.rhsIdx (ix2 p q) ((contrEquiv1 dot_S5000x32_S32x64_S5000x64_1_0_0_1_n_n 32 rfl rfl).symm k) 1).val = q.val
        unfold DotDims.rhsIdx
        rw [dif_neg (show ¬(1 : Fin S32x64.rank) ∈ dot_S5000x32_S32x64_S5000x64_1_0_0_1_n_n.rhsBatch by decide),
          dif_pos (show (1 : Fin S32x64.rank) ∈ dot_S5000x32_S32x64_S5000x64_1_0_0_1_n_n.rhsNonContracting by decide)]
        rfl)
  rw [el, er]

/-- The bias row repeated down the block, at entry `(p, q)`: the row's entry `q`, whatever the row `p`. -/
theorem bias_at (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-- The body's stored value at entry `(p, q)` of a block: the rectified convolution entry of the five loaded blocks
    (neighbour sums, own features, the two weights, the bias row), the two products added first and the bias last. -/
theorem payload_at (x0 x1 : Vec Ideal S5000x32 .f32) (x2 x3 : Vec Ideal S32x64 .f32) (x4 : Vec Ideal S1x64 .f32)
    (p : Fin 5000) (q : Fin 64) :
    k1_pay1 (F := Ideal) x0 x1 x2 x3 x4 (ix2 p q)
      = max (convAt (N := 5000) (K := 32) (D := 64) x0 x1 x2 x3 x4 p q) zeroWord := by
  unfold k1_pay1
  simp only [shapeCast_self]
  rw [maximumf_apply, addf_apply, addf_apply, product_at, product_at, bias_at]
  rfl

/-! ## From blocks to the array -/

section
variable (V : (c : Dev nD) → (b : Ref sig .tc) → Buf (Elt Ideal) ((c : Thread nD τ).loc b))

/-- The layer of the whole arrays as the region finds them. -/
abbrev layer (c : Dev nD) : Mat 100000 64 :=
  convRelu (N := 100000) (K := 32) (D := 64) (V c main_v35) (V c main_v25) (V c main_v36) (V c main_v37) (V c main_v38)

/-- The printed index maps over the grid: at point `t` the two feature blocks and the result block are block `t` of the
    rows; both weights and the bias row are whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point is one of 20. -/
theorem point_lt (t : Fin cfg1.N) : t.val < 20 := N_1 ▸ t.isLt

/-- Row `p` of block `t` is row `5000 t + p` of the array. -/
def rowOf (t : Fin cfg1.N) (p : Fin 5000) : Fin 100000 := ⟨t.val * 5000 + p.val, by have := point_lt t; have := p.isLt; omega⟩

/-- The block of neighbour sums at point `t`, at `(p, k)`: the array's row `5000 t + p`. -/
theorem read_aggregate (c : Dev nD) (t : Fin cfg1.N) (p : Fin 5000) (k : Fin 32) :
    iblk1 V c 0 t (ix2 p k) = V c main_v35 (ix2 (rowOf t p) k) := by
  obtain ⟨e00, e01, -⟩ := idx_facts t
  show V c main_v35 (((cfg1.win 0).blk t).view.emb (ix2 p k)) = V c main_v35 (ix2 (rowOf t p) k)
  refine congrArg (V c main_v35) (funext fun a => Fin.ext ?_)
  match a with
  | ⟨0, _⟩ => show win1_0.index t (0 : Fin 2) * 5000 + 1 * p.val = t.val * 5000 + p.val; omega
  | ⟨1, _⟩ => show win1_0.index t (1 : Fin 2) * 32 + 1 * k.val = k.val; omega

/-- The block of the nodes' own features at point `t`, at `(p, k)`: the array's row `5000 t + p`. -/
theorem read_features (c : Dev nD) (t : Fin cfg1.N) (p : Fin 5000) (k : Fin 32) :
    iblk1 V c 1 t (ix2 p k) = V c main_v25 (ix2 (rowOf t p) k) := by
  obtain ⟨-, -, e10, e11, -⟩ := idx_facts t
  show V c main_v25 (((cfg1.win 1).blk t).view.emb (ix2 p k)) = V c main_v25 (ix2 (rowOf t p) k)
  refine congrArg (V c main_v25) (funext fun a => Fin.ext ?_)
  match a with
  | ⟨0, _⟩ => show win1_1.index t (0 : Fin 2) * 5000 + 1 * p.val = t.val * 5000 + p.val; omega
  | ⟨1, _⟩ => show win1_1.index t (1 : Fin 2) * 32 + 1 * k.val = k.val; omega

/-- The block of the neighbours' weight at any point is the whole weight. -/
theorem read_weight_rel (c : Dev nD) (t : Fin cfg1.N) (k : Fin 32) (q : Fin 64) :
    iblk1 V c 2 t (ix2 k q) = V c main_v36 (ix2 k q) := by
  obtain ⟨-, -, -, -, e20, e21, -⟩ := idx_facts t
  show V c main_v36 (((cfg1.win 2).blk t).view.emb (ix2 k q)) = V c main_v36 (ix2 k q)
  refine congrArg (V c main_v36) (funext fun a => Fin.ext ?_)
  match a with
  | ⟨0, _⟩ => show win1_2.index t (0 : Fin 2) * 32 + 1 * k.val = k.val; omega
  | ⟨1, _⟩ => show win1_2.index t (1 : Fin 2) * 64 + 1 * q.val = q.val; omega

/-- The block of the nodes' own weight at any point is the whole weight. -/
theorem read_weight_root (c : Dev nD) (t : Fin cfg1.N) (k : Fin 32) (q : Fin 64) :
    iblk1 V c 3 t (ix2 k q) = V c main_v37 (ix2 k q) := by
  obtain ⟨-, -, -, -, -, -, e30, e31, -⟩ := idx_facts t
  show V c main_v37 (((cfg1.win 3).blk t).view.emb (ix2 k q)) = V c main_v37 (ix2 k q)
  refine congrArg (V c main_v37) (funext fun a => Fin.ext ?_)
  match a with
  | ⟨0, _⟩ => show win1_3.index t (0 : Fin 2) * 32 + 1 * k.val = k.val; omega
  | ⟨1, _⟩ => show win1_3.index t (1 : Fin 2) * 64 + 1 * q.val = q.val; omega

/-- The bias block at any point is the whole bias row. -/
theorem read_bias (c : Dev nD) (t : Fin cfg1.N) (q : Fin 64) :
    iblk1 V c 4 t (ix2 0 q) = V c main_v38 (ix2 0 q) := by
  obtain ⟨-, -, -, -, -, -, -, -, e40, e41, -⟩ := idx_facts t
  show V c main_v38 (((cfg1.win 4).blk t).view.emb (ix2 0 q)) = V c main_v38 (ix2 0 q)
  refine congrArg (V c main_v38) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Entry `(p, q)` of the result block at point `t` sits at row `5000 t + p`, column `q` of the array. -/
theorem result_at (c : Dev nD) (t : Fin cfg1.N) (p : Fin 5000) (q : Fin 64) :
    ((cfg1.win 5).blk t).view.read (Elt Ideal) (layer V c) (ix2 p q) = layer V c (ix2 (rowOf t p) q) := by
  obtain ⟨-, -, -, -, -, -, -, -, -, -, e50, e51⟩ := idx_facts t
  show layer V c (((cfg1.win 5).blk t).view.emb (ix2 p q)) = layer V c (ix2 (rowOf t p) q)
  refine congrArg (layer V c) (funext fun a => Fin.ext ?_)
  match a with
  | ⟨0, _⟩ => show win1_5.index t (0 : Fin 2) * 5000 + 1 * p.val = t.val * 5000 + p.val; omega
  | ⟨1, _⟩ => show win1_5.index t (1 : Fin 2) * 64 + 1 * q.val = q.val; omega

/-- WHAT POINT `t` WRITES BACK is block `t` of the layer of the whole arrays. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 (F := Ideal) V c).after 5 t) = _
  rw [after1_5]
  unfold out1_5
  rw [View.canon_unit_zero origin_zero]
  simp only [View.ld_unit_zero (S := S5000x32) origin_zero, View.ld_unit_zero (S := S32x64) origin_zero,
    View.ld_unit_zero (S := S1x64) origin_zero]
  funext j
  obtain ⟨p, q, rfl⟩ : ∃ (p : Fin 5000) (q : Fin 64), j = ix2 p q := ⟨j 0, j 1, eq_ix2 j⟩
  refine (payload_at (iblk1 V c 0 t) (iblk1 V c 1 t) (iblk1 V c 2 t) (iblk1 V c 3 t) (iblk1 V c 4 t) p q).trans ?_
  rw [result_at V c t p q]
  show max (convAt (N := 5000) (K := 32) (D := 64) (iblk1 V c 0 t) (iblk1 V c 1 t) (iblk1 V c 2 t)
      (iblk1 V c 3 t) (iblk1 V c 4 t) p q) zeroWord
    = max (convAt (N := 100000) (K := 32) (D := 64) (V c main_v35) (V c main_v25) (V c main_v36) (V c main_v37)
      (V c main_v38) (rowOf t p) q) zeroWord
  refine congrArg (fun z => max z zeroWord) ?_
  unfold convAt dotAt
  rw [read_bias V c t q]
  refine congrArg (· + V c main_v38 (ix2 0 q)) ?_
  refine congrArg₂ (· + ·) (Finset.sum_congr rfl fun k _ => ?_) (Finset.sum_congr rfl fun k _ => ?_)
  · rw [read_aggregate V c t p k, read_weight_rel V c t k q]
  · rw [read_features V c t p k, read_weight_root V c t k q]

/-- An index of the array is in point `t`'s result block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v39).slice (win1_5.rect t)).set ↔ _
  rw [View.set_slice_whole, Rect.mem_set_unit]
  exact Iff.rfl

/-- Every entry of the result is written by the point that owns its row: row `r` belongs to point `r / 5000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, e50, e51⟩ := idx_facts t
  have ht : t.val = (i 0).val / 5000 := rfl
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- THE ARRAY after the region: the rectified graph convolution of the arrays the region was entered with. -/
theorem final (c : Dev nD) : (dat1 (F := Ideal) V c).arrAt 5 cfg1.N
    = convRelu (N := 100000) (K := 32) (D := 64) (V c main_v35) (V c main_v25) (V c main_v36) (V c main_v37) (V c main_v38) :=
  (dat1 (F := Ideal) V c).arrAt_eq_of_cover 5 (layer V c) (fun t _ => flushed_eq V c t) (covered)

end

end Cert.KernelIdeal.Region1

end
-- ==== Proof.Region2.lean ====
/-
  The second graph-convolution layer, as its region leaves it: for ANY contents `V` of the buffers when the region is
  entered, the output array ends holding, entry by entry, the rectified convolution of five input arrays, now all 64
  wide: the summed first-convolution features of each node's in-neighbours, the node's own first-convolution features,
  a square transposed weight (64 by 64) for each of the two, and a bias row.

  As in the layer before, the 100,000 rows go in 20 blocks of 5000: grid point `t` takes block `t` of the two feature
  arrays, both weights and the bias row whole, and writes block `t` of the result. At entry `(p, q)` of a block the body
  forms two matrix-unit products into zero accumulators, each a sum of 64 terms (neighbour sum `(p, k)` times its
  weight `(k, q)`; own feature `(p, k)` times its weight `(k, q)`; shortening a word to the narrower format does nothing
  on the extended reals), adds them, adds the bias row's entry `q`, and takes the maximum with zero. The terms stand
  in the order of the layer's definition, so block `t` of the result is block `t` of one function of the whole arrays,
  and the 20 blocks leave no row out.
-/
import proofs.«103520_j88648124991072_1_alg».proof.Proof.Gen.KernelIdeal.Frame
import proofs.«103520_j88648124991072_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx Cert.Stages
open Idealize.ShloMosaic.Pipeline (Dat Cfg Window)

/-- The origin of a block, as a function. -/
theorem origin_zero : (![0, 0] : Fin 2 → Nat) = fun _ => 0 := funext fun a => by fin_cases a <;> rfl

/-! ## The body's value at an entry -/

/-- One matrix-unit product into a zero accumulator, at entry `(p, q)`: row `p` of the left factor against column `q`
    of the right one, a sum of 64 terms. Both products of the body have this form. -/
theorem product_at (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ =>
        show (dot_S5000x64_S64x64_S5000x64_1_0_0_1_n_n.lhsIdx (ix2 p q) ((contrEquiv1 dot_S5000x64_S64x64_S5000x64_1_0_0_1_n_n 64 rfl rfl).symm k) 0).val = p.val
        unfold DotDims.lhsIdx
        rw [dif_neg (show ¬(0 : Fin S5000x64.rank) ∈ dot_S5000x64_S64x64_S5000x64_1_0_0_1_n_n.lhsBatch by decide),
          dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ =>
        show (dot_S5000x64_S64x64_S5000x64_1_0_0_1_n_n.rhsIdx (ix2 p q) ((contrEquiv1 dot_S5000x64_S64x64_S5000x64_1_0_0_1_n_n 64 rfl rfl).symm k) 1).val = q.val
        unfold DotDims.rhsIdx
        rw [dif_neg (show ¬(1 : Fin S64x64.rank) ∈ dot_S5000x64_S64x64_S5000x64_1_0_0_1_n_n.rhsBatch by decide),
          dif_pos (show (1 : Fin S64x64.rank) ∈ dot_S5000x64_S64x64_S5000x64_1_0_0_1_n_n.rhsNonContracting by decide)]
        rfl)
  rw [el, er]

/-- The bias row repeated down the block, at entry `(p, q)`: the row's entry `q`, whatever the row `p`. -/
theorem bias_at (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-- The body's stored value at entry `(p, q)` of a block: the rectified convolution entry of the five loaded blocks
    (neighbour sums, own features, the two weights, the bias row), the two products added first and the bias last. -/
theorem payload_at (x0 x1 : Vec Ideal S5000x64 .f32) (x2 x3 : Vec Ideal S64x64 .f32) (x4 : Vec Ideal S1x64 .f32)
    (p : Fin 5000) (q : Fin 64) :
    k2_pay1 (F := Ideal) x0 x1 x2 x3 x4 (ix2 p q)
      = max (convAt (N := 5000) (K := 64) (D := 64) x0 x1 x2 x3 x4 p q) zeroWord := by
  unfold k2_pay1
  simp only [shapeCast_self]
  rw [maximumf_apply, addf_apply, addf_apply, product_at, product_at, bias_at]
  rfl

/-! ## From blocks to the array -/

section
variable (V : (c : Dev nD) → (b : Ref sig .tc) → Buf (Elt Ideal) ((c : Thread nD τ).loc b))

/-- The layer of the whole arrays as the region finds them. -/
abbrev layer (c : Dev nD) : Mat 100000 64 :=
  convRelu (N := 100000) (K := 64) (D := 64) (V c main_v49) (V c main_v39) (V c main_v50) (V c main_v51) (V c main_v52)

/-- The printed index maps over the grid: at point `t` the two feature blocks and the result block are block `t` of the
    rows; both weights and the bias row are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A point is one of 20. -/
theorem point_lt (t : Fin cfg2.N) : t.val < 20 := N_2 ▸ t.isLt

/-- Row `p` of block `t` is row `5000 t + p` of the array. -/
def rowOf (t : Fin cfg2.N) (p : Fin 5000) : Fin 100000 := ⟨t.val * 5000 + p.val, by have := point_lt t; have := p.isLt; omega⟩

/-- The block of neighbour sums at point `t`, at `(p, k)`: the array's row `5000 t + p`. -/
theorem read_aggregate (c : Dev nD) (t : Fin cfg2.N) (p : Fin 5000) (k : Fin 64) :
    iblk2 V c 0 t (ix2 p k) = V c main_v49 (ix2 (rowOf t p) k) := by
  obtain ⟨e00, e01, -⟩ := idx_facts t
  show V c main_v49 (((cfg2.win 0).blk t).view.emb (ix2 p k)) = V c main_v49 (ix2 (rowOf t p) k)
  refine congrArg (V c main_v49) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- The block of the nodes' own features at point `t`, at `(p, k)`: the array's row `5000 t + p`. -/
theorem read_features (c : Dev nD) (t : Fin cfg2.N) (p : Fin 5000) (k : Fin 64) :
    iblk2 V c 1 t (ix2 p k) = V c main_v39 (ix2 (rowOf t p) k) := by
  obtain ⟨-, -, e10, e11, -⟩ := idx_facts t
  show V c main_v39 (((cfg2.win 1).blk t).view.emb (ix2 p k)) = V c main_v39 (ix2 (rowOf t p) k)
  refine congrArg (V c main_v39) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * k.val = k.val; omega

/-- The block of the neighbours' weight at any point is the whole weight. -/
theorem read_weight_rel (c : Dev nD) (t : Fin cfg2.N) (k : Fin 64) (q : Fin 64) :
    iblk2 V c 2 t (ix2 k q) = V c main_v50 (ix2 k q) := by
  obtain ⟨-, -, -, -, e20, e21, -⟩ := idx_facts t
  show V c main_v50 (((cfg2.win 2).blk t).view.emb (ix2 k q)) = V c main_v50 (ix2 k q)
  refine congrArg (V c main_v50) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The block of the nodes' own weight at any point is the whole weight. -/
theorem read_weight_root (c : Dev nD) (t : Fin cfg2.N) (k : Fin 64) (q : Fin 64) :
    iblk2 V c 3 t (ix2 k q) = V c main_v51 (ix2 k q) := by
  obtain ⟨-, -, -, -, -, -, e30, e31, -⟩ := idx_facts t
  show V c main_v51 (((cfg2.win 3).blk t).view.emb (ix2 k q)) = V c main_v51 (ix2 k q)
  refine congrArg (V c main_v51) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- The bias block at any point is the whole bias row. -/
theorem read_bias (c : Dev nD) (t : Fin cfg2.N) (q : Fin 64) :
    iblk2 V c 4 t (ix2 0 q) = V c main_v52 (ix2 0 q) := by
  obtain ⟨-, -, -, -, -, -, -, -, e40, e41, -⟩ := idx_facts t
  show V c main_v52 (((cfg2.win 4).blk t).view.emb (ix2 0 q)) = V c main_v52 (ix2 0 q)
  refine congrArg (V c main_v52) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- Entry `(p, q)` of the result block at point `t` sits at row `5000 t + p`, column `q` of the array. -/
theorem result_at (c : Dev nD) (t : Fin cfg2.N) (p : Fin 5000) (q : Fin 64) :
    ((cfg2.win 5).blk t).view.read (Elt Ideal) (layer V c) (ix2 p q) = layer V c (ix2 (rowOf t p) q) := by
  obtain ⟨-, -, -, -, -, -, -, -, -, -, e50, e51⟩ := idx_facts t
  show layer V c (((cfg2.win 5).blk t).view.emb (ix2 p q)) = layer V c (ix2 (rowOf t p) q)
  refine congrArg (layer V c) (funext fun a => Fin.ext ?_)
  match a with
  | ⟨0, _⟩ => show win2_5.index t (0 : Fin 2) * 5000 + 1 * p.val = t.val * 5000 + p.val; omega
  | ⟨1, _⟩ => show win2_5.index t (1 : Fin 2) * 64 + 1 * q.val = q.val; omega

/-- WHAT POINT `t` WRITES BACK is block `t` of the layer of the whole arrays. -/
theorem flushed_eq (c : Dev nD) (t : Fin cfg2.N) :
    (dat2 (F := Ideal) V c).flushed 5 t = ((cfg2.win 5).blk t).view.read (Elt Ideal) (layer V c) := by
  show (cfg2.win 5).cut (grid2.coords t) ((dat2 (F := Ideal) V c).after 5 t) = _
  rw [after2_5]
  unfold out2_5
  rw [View.canon_unit_zero origin_zero]
  simp only [View.ld_unit_zero (S := S5000x64) origin_zero, View.ld_unit_zero (S := S64x64) origin_zero,
    View.ld_unit_zero (S := S1x64) origin_zero]
  funext j
  obtain ⟨p, q, rfl⟩ : ∃ (p : Fin 5000) (q : Fin 64), j = ix2 p q := ⟨j 0, j 1, eq_ix2 j⟩
  refine (payload_at (iblk2 V c 0 t) (iblk2 V c 1 t) (iblk2 V c 2 t) (iblk2 V c 3 t) (iblk2 V c 4 t) p q).trans ?_
  rw [result_at V c t p q]
  show max (convAt (N := 5000) (K := 64) (D := 64) (iblk2 V c 0 t) (iblk2 V c 1 t) (iblk2 V c 2 t)
      (iblk2 V c 3 t) (iblk2 V c 4 t) p q) zeroWord
    = max (convAt (N := 100000) (K := 64) (D := 64) (V c main_v49) (V c main_v39) (V c main_v50) (V c main_v51)
      (V c main_v52) (rowOf t p) q) zeroWord
  refine congrArg (fun z => max z zeroWord) ?_
  unfold convAt dotAt
  rw [read_bias V c t q]
  refine congrArg (· + V c main_v52 (ix2 0 q)) ?_
  refine congrArg₂ (· + ·) (Finset.sum_congr rfl fun k _ => ?_) (Finset.sum_congr rfl fun k _ => ?_)
  · rw [read_aggregate V c t p k, read_weight_rel V c t k q]
  · rw [read_features V c t p k, read_weight_root V c t k q]

/-- An index of the array is in point `t`'s result block iff each coordinate is in the block's range on its axis. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v53).slice (win2_5.rect t)).set ↔ _
  rw [View.set_slice_whole, Rect.mem_set_unit]
  exact Iff.rfl

/-- Every entry of the result is written by the point that owns its row: row `r` belongs to point `r / 5000`. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, -, -, -, -, -, -, e50, e51⟩ := idx_facts t
  have ht : t.val = (i 0).val / 5000 := rfl
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- THE ARRAY after the region: the rectified graph convolution of the arrays the region was entered with. -/
theorem final (c : Dev nD) : (dat2 (F := Ideal) V c).arrAt 5 cfg2.N
    = convRelu (N := 100000) (K := 64) (D := 64) (V c main_v49) (V c main_v39) (V c main_v50) (V c main_v51) (V c main_v52) :=
  (dat2 (F := Ideal) V c).arrAt_eq_of_cover 5 (layer V c) (fun t _ => flushed_eq V c t) (covered)

end

end Cert.KernelIdeal.Region2

end
-- ==== Proof.Region3.lean ====
/-
  The classifier, as its region leaves it: for ANY contents `V` of the buffers when the region is entered, the output
  array ends holding, entry by entry, the affine layer of three input arrays: the per-graph mean features (1024 graphs,
  64 wide), the transposed weight (64 by 10) and a bias row of ten entries. Nothing is rectified here: these are the
  logits.

  The grid has a single point, and every window is the whole of its array: a block's row is the array's row, and every
  index the maps give is 0. At entry `(p, q)` the body forms the matrix-unit product into a zero accumulator, the sum
  over the 64 values of `k` of mean feature `(p, k)` times weight `(k, q)` (shortening a word to the narrower format does
  nothing on the extended reals), and adds the bias row's entry `q`. So what the one point writes back is the layer of
  the whole arrays, and its block is all of the result.
-/
import proofs.«103520_j88648124991072_1_alg».proof.Proof.Gen.KernelIdeal.Frame
import proofs.«103520_j88648124991072_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx Cert.Stages
open Idealize.ShloMosaic.Pipeline (Dat Cfg Window)

/-- The origin of a block, as a function. -/
theorem origin_zero : (![0, 0] : Fin 2 → Nat) = fun _ => 0 := funext fun a => by fin_cases a <;> rfl

/-! ## The body's value at an entry -/

/-- The matrix unit's product into a zero accumulator, at entry `(p, q)`: row `p` of the mean features against column
    `q` of the weight, a sum of 64 terms. -/
theorem product_at (x : FVec Ideal S1024x64 .bf16) (w : FVec Ideal S64x10 .bf16) (p : Fin 1024) (q : Fin 10) :
    matmul dot_S1024x64_S64x10_S1024x10_1_0_0_1_n_n none x w (constant S1024x10 .f32 0x00000000#32) (ix2 p q)
      = ∑ k : Fin 64, x (ix2 p k) * w (ix2 k q) := by
  refine (Ideal.matmul_constant_zero_apply dot_S1024x64_S64x10_S1024x10_1_0_0_1_n_n none x w (ix2 p q)).trans ?_
  rw [← Equiv.sum_comp (contrEquiv1 dot_S1024x64_S64x10_S1024x10_1_0_0_1_n_n 64 rfl rfl).symm]
  refine Finset.sum_congr rfl fun k _ => ?_
  have hk := contrEquiv1_symm_val dot_S1024x64_S64x10_S1024x10_1_0_0_1_n_n 64 rfl rfl k
  have el : dot_S1024x64_S64x10_S1024x10_1_0_0_1_n_n.lhsIdx (ix2 p q) ((contrEquiv1 dot_S1024x64_S64x10_S1024x10_1_0_0_1_n_n 64 rfl rfl).symm k) = ix2 p k :=
    funext fun a => Fin.ext (by
      match a with
      | ⟨0, _⟩ =>
        show (dot_S1024x64_S64x10_S1024x10_1_0_0_1_n_n.lhsIdx (ix2 p q) ((contrEquiv1 dot_S1024x64_S64x10_S1024x10_1_0_0_1_n_n 64 rfl rfl).symm k) 0).val = p.val
        unfold DotDims.lhsIdx
        rw [dif_neg (show ¬(0 : Fin S1024x64.rank) ∈ dot_S1024x64_S64x10_S1024x10_1_0_0_1_n_n.lhsBatch by decide),
          dif_pos (show (0 : Fin S1024x64.rank) ∈ dot_S1024x64_S64x10_S1024x10_1_0_0_1_n_n.lhsNonContracting by decide)]
        rfl
      | ⟨1, _⟩ => exact (dot_S1024x64_S64x10_S1024x10_1_0_0_1_n_n.lhsIdx_val_of_single rfl _ _).trans hk)
  have er : dot_S1024x64_S64x10_S1024x10_1_0_0_1_n_n.rhsIdx (ix2 p q) ((contrEquiv1 dot_S1024x64_S64x10_S1024x10_1_0_0_1_n_n 64 rfl rfl).symm k) = ix2 k q :=
    funext fun a => Fin.ext (by
      match a with
      | ⟨0, _⟩ => exact (dot_S1024x64_S64x10_S1024x10_1_0_0_1_n_n.rhsIdx_val_of_single rfl _ _).trans hk
      | ⟨1, _⟩ =>
        show (dot_S1024x64_S64x10_S1024x10_1_0_0_1_n_n.rhsIdx (ix2 p q) ((contrEquiv1 dot_S1024x64_S64x10_S1024x10_1_0_0_1_n_n 64 rfl rfl).symm k) 1).val = q.val
        unfold DotDims.rhsIdx
        rw [dif_neg (show ¬(1 : Fin S64x10.rank) ∈ dot_S1024x64_S64x10_S1024x10_1_0_0_1_n_n.rhsBatch by decide),
          dif_pos (show (1 : Fin S64x10.rank) ∈ dot_S1024x64_S64x10_S1024x10_1_0_0_1_n_n.rhsNonContracting by decide)]
        rfl)
  rw [el, er]

/-- The bias row repeated down the 1024 rows, at entry `(p, q)`: the row's entry `q`, whatever the row `p`. -/
theorem bias_at (b : FVec Ideal S1x10 .f32) (p : Fin 1024) (q : Fin 10) :
    broadcastTo S1024x10 b broadcasts_S1x10_S1024x10 (ix2 p q) = b (ix2 0 q) :=
  broadcastTo_apply b broadcasts_S1x10_S1024x10 (ix2 p q) (ix2 0 q) (fun a => by
    match a with
    | ⟨0, _⟩ => rfl
    | ⟨1, _⟩ => rfl)

/-- The body's stored value at entry `(p, q)`: the affine entry of the loaded blocks, with no maximum taken. -/
theorem payload_at (x0 : Vec Ideal S1024x64 .f32) (x1 : Vec Ideal S64x10 .f32) (x2 : Vec Ideal S1x10 .f32)
    (p : Fin 1024) (q : Fin 10) :
    k3_pay1 (F := Ideal) x0 x1 x2 (ix2 p q) = affAt (N := 1024) (K := 64) (D := 10) x0 x1 x2 p q := by
  unfold k3_pay1
  simp only [shapeCast_self]
  rw [addf_apply, product_at, bias_at]
  rfl

/-! ## From the one block to the array -/

section
variable (V : (c : Dev nD) → (b : Ref sig .tc) → Buf (Elt Ideal) ((c : Thread nD τ).loc b))

/-- The layer of the whole arrays as the region finds them. -/
abbrev layer (c : Dev nD) : Mat 1024 10 :=
  affine (N := 1024) (K := 64) (D := 10) (V c main_v65) (V c main_v66) (V c main_v67)

/-- The printed index maps over the grid: at its only point every window sits at the origin of its array, the
    features and the result included (their map returns the point's number, which is 0). -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The feature block at the point is the whole array of mean features: row `p` of the block is row `p` of the array. -/
theorem read_features (c : Dev nD) (t : Fin cfg3.N) (p : Fin 1024) (k : Fin 64) :
    iblk3 V c 0 t (ix2 p k) = V c main_v65 (ix2 p k) := by
  obtain ⟨e00, e01, -⟩ := idx_facts t
  show V c main_v65 (((cfg3.win 0).blk t).view.emb (ix2 p k)) = V c main_v65 (ix2 p k)
  refine congrArg (V c main_v65) (funext fun a => Fin.ext ?_)
  match a with
  | ⟨0, _⟩ => show win3_0.index t (0 : Fin 2) * 1024 + 1 * p.val = p.val; omega
  | ⟨1, _⟩ => show win3_0.index t (1 : Fin 2) * 64 + 1 * k.val = k.val; omega

/-- The weight block at the point is the whole weight. -/
theorem read_weight (c : Dev nD) (t : Fin cfg3.N) (k : Fin 64) (q : Fin 10) :
    iblk3 V c 1 t (ix2 k q) = V c main_v66 (ix2 k q) := by
  obtain ⟨-, -, e10, e11, -⟩ := idx_facts t
  show V c main_v66 (((cfg3.win 1).blk t).view.emb (ix2 k q)) = V c main_v66 (ix2 k q)
  refine congrArg (V c main_v66) (funext fun a => Fin.ext ?_)
  match a with
  | ⟨0, _⟩ => show win3_1.index t (0 : Fin 2) * 64 + 1 * k.val = k.val; omega
  | ⟨1, _⟩ => show win3_1.index t (1 : Fin 2) * 10 + 1 * q.val = q.val; omega

/-- The bias block at the point is the whole bias row. -/
theorem read_bias (c : Dev nD) (t : Fin cfg3.N) (q : Fin 10) :
    iblk3 V c 2 t (ix2 0 q) = V c main_v67 (ix2 0 q) := by
  obtain ⟨-, -, -, -, e20, e21, -⟩ := idx_facts t
  show V c main_v67 (((cfg3.win 2).blk t).view.emb (ix2 0 q)) = V c main_v67 (ix2 0 q)
  refine congrArg (V c main_v67) (funext fun a => Fin.ext ?_)
  match a with
  | ⟨0, _⟩ => show win3_2.index t (0 : Fin 2) * 1 + 1 * 0 = 0; omega
  | ⟨1, _⟩ => show win3_2.index t (1 : Fin 2) * 10 + 1 * q.val = q.val; omega

/-- Entry `(p, q)` of the result block sits at the same place `(p, q)` of the array. -/
theorem result_at (c : Dev nD) (t : Fin cfg3.N) (p : Fin 1024) (q : Fin 10) :
    ((cfg3.win 3).blk t).view.read (Elt Ideal) (layer V c) (ix2 p q) = layer V c (ix2 p q) := by
  obtain ⟨-, -, -, -, -, -, e30, e31⟩ := idx_facts t
  show layer V c (((cfg3.win 3).blk t).view.emb (ix2 p q)) = layer V c (ix2 p q)
  refine congrArg (layer V c) (funext fun a => Fin.ext ?_)
  match a with
  | ⟨0, _⟩ => show win3_3.index t (0 : Fin 2) * 1024 + 1 * p.val = p.val; omega
  | ⟨1, _⟩ => show win3_3.index t (1 : Fin 2) * 10 + 1 * q.val = q.val; omega

/-- WHAT THE POINT WRITES BACK is the layer of the whole arrays, read through the result window. -/
theorem flushed_eq (c : Dev nD) (t : Fin cfg3.N) :
    (dat3 (F := Ideal) V c).flushed 3 t = ((cfg3.win 3).blk t).view.read (Elt Ideal) (layer V c) := by
  show (cfg3.win 3).cut (grid3.coords t) ((dat3 (F := Ideal) V c).after 3 t) = _
  rw [after3_3]
  unfold out3_3
  rw [View.canon_unit_zero origin_zero]
  simp only [View.ld_unit_zero (S := S1024x64) origin_zero, View.ld_unit_zero (S := S64x10) origin_zero,
    View.ld_unit_zero (S := S1x10) origin_zero]
  funext j
  obtain ⟨p, q, rfl⟩ : ∃ (p : Fin 1024) (q : Fin 10), j = ix2 p q := ⟨j 0, j 1, eq_ix2 j⟩
  refine (payload_at (iblk3 V c 0 t) (iblk3 V c 1 t) (iblk3 V c 2 t) p q).trans ?_
  rw [result_at V c t p q]
  show affAt (N := 1024) (K := 64) (D := 10) (iblk3 V c 0 t) (iblk3 V c 1 t) (iblk3 V c 2 t) p q
    = affAt (N := 1024) (K := 64) (D := 10) (V c main_v65) (V c main_v66) (V c main_v67) p q
  unfold affAt dotAt
  rw [read_bias V c t q]
  refine congrArg (· + V c main_v67 (ix2 0 q)) (Finset.sum_congr rfl fun k _ => ?_)
  rw [read_features V c t p k, read_weight V c t k q]

/-- An index of the array is in the point's result block iff each coordinate is in the block's range on its axis. -/
theorem mem_blk (t : Fin cfg3.N) (i : S1024x10.Idx) :
    i ∈ ((cfg3.win 3).blk t).view.set ↔ ∀ a : Fin 2, win3_3.index t a * S1024x10.size a ≤ (i a).val
      ∧ (i a).val < win3_3.index t a * S1024x10.size a + S1024x10.size a := by
  show i ∈ ((View.whole main_v68).slice (win3_3.rect t)).set ↔ _
  rw [View.set_slice_whole, Rect.mem_set_unit]
  exact Iff.rfl

/-- Every entry of the result is written by the one point: its block starts at the origin and has the array's extents. -/
theorem covered (i : S1024x10.Idx) :
    ∃ t : Fin cfg3.N, (cfg3.win 3).flush t = true ∧ i ∈ ((cfg3.win 3).blk t).view.set := by
  have hi0 : (i 0).val < 1024 := (i 0).isLt
  have hi1 : (i 1).val < 10 := (i 1).isLt
  obtain ⟨-, -, -, -, -, -, e30, e31⟩ := idx_facts t3_0
  refine ⟨t3_0, flush3_3 t3_0, ?_⟩
  rw [mem_blk]
  intro a
  match a with
  | ⟨0, _⟩ =>
    show win3_3.index t3_0 (0 : Fin 2) * 1024 ≤ (i 0).val ∧ (i 0).val < win3_3.index t3_0 (0 : Fin 2) * 1024 + 1024
    omega
  | ⟨1, _⟩ =>
    show win3_3.index t3_0 (1 : Fin 2) * 10 ≤ (i 1).val ∧ (i 1).val < win3_3.index t3_0 (1 : Fin 2) * 10 + 10
    omega

/-- THE ARRAY after the region: the affine layer of the arrays the region was entered with. -/
theorem final (c : Dev nD) : (dat3 (F := Ideal) V c).arrAt 3 cfg3.N
    = affine (N := 1024) (K := 64) (D := 10) (V c main_v65) (V c main_v66) (V c main_v67) :=
  (dat3 (F := Ideal) V c).arrAt_eq_of_cover 3 (layer V c) (fun t _ => flushed_eq V c t) (covered)

end

end Cert.KernelIdeal.Region3

end
-- ==== Proof.Walk.lean ====
/-
  The idealized kernel program's result buffer, read back stage by stage to ONE function of the argument arrays.

  The program is four regions among four stretches of host operations. At the boundary after the last region the
  result buffer holds what that region's write-backs leave: the affine classifier of the three arrays the region was
  entered with (the per-graph means, the transposed weight, the bias row). Those were written by the stretch before
  it from the third layer's output and the arguments; that output is what the third region left, the rectified graph
  convolution of ITS entry arrays; and so on down to the first stretch, which builds the embedded features, the
  transposed weight and the bias row from the arguments. A buffer that no later operation or region writes still holds
  what it held (the edge indices computed in the first stretch and read again in the second and third; the arguments).

  Each step rewrites one buffer's contents: a region's output by that region's closed form, a stretch's outputs by the
  stretch's operations applied to the contents before it. The gather / scatter-add / pooling operations are met only
  as whole functions (`aggregate32`, `aggregate64`, `meanPool`) of the features going in.
-/
import proofs.«103520_j88648124991072_1_alg».proof.Proof.Gen.KernelIdeal.Frame
import proofs.«103520_j88648124991072_1_alg».proof.Proof.Spec
import proofs.«103520_j88648124991072_1_alg».proof.Proof.Kept
import proofs.«103520_j88648124991072_1_alg».proof.Proof.Region0
import proofs.«103520_j88648124991072_1_alg».proof.Proof.Region1
import proofs.«103520_j88648124991072_1_alg».proof.Proof.Region2
import proofs.«103520_j88648124991072_1_alg».proof.Proof.Region3
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo Cert.Stages Cert.Spec

variable (m : (ℓ : Loc nD τ sig) → Buf (Elt Ideal) ℓ) (ρ : Dev nD → PrngReg) (c : Dev nD)

/-! ## The first layer -/

/-- After the first region its result buffer holds the first layer's features of the arguments. -/
theorem feat1_at : W2 m ρ c (Proc.devRef .tc main_v25) = feat1 (m ((c : Thread nD τ).loc main_arg0)) (m ((c : Thread nD τ).loc main_arg3)) (m ((c : Thread nD τ).loc main_arg4)) (m ((c : Thread nD τ).loc main_arg5)) (m ((c : Thread nD τ).loc main_arg6)) := by
  unfold feat1 feat0
  rw [← Kept.W1_v22 m ρ c, ← Kept.W1_v23 m ρ c, ← Kept.W1_v24 m ρ c]
  exact (W2_arr m ρ c 3).trans (Region0.final (V1 m ρ) c)

/-! ## The second layer -/

/-- The stretch before the second region sums the first layer's features over incoming edges. -/
theorem agg1_at : W3 m ρ c (Proc.devRef .tc main_v35) = aggregate32 (W2 m ρ c (Proc.devRef .tc main_v25)) (m ((c : Thread nD τ).loc main_arg1)) := by
  show StableHlo.after hostOps1 (W2 m ρ c) (Proc.devRef .tc main_v35) = _
  after_results_simp
  rw [Kept.W2_v1 m ρ c, Kept.W2_v3 m ρ c]
  rfl

/-- … transposes the neighbour weight, -/
theorem wrel1_at : W3 m ρ c (Proc.devRef .tc main_v36) = Cert.ReferenceIdeal.Read.val_main_v39 (F := Ideal) (m ((c : Thread nD τ).loc main_arg7)) := by
  show StableHlo.after hostOps1 (W2 m ρ c) (Proc.devRef .tc main_v36) = _
  after_results_simp
  rw [Kept.W2_arg7 m ρ c]
  rfl

/-- … transposes the root weight, -/
theorem wroot1_at : W3 m ρ c (Proc.devRef .tc main_v37) = Cert.ReferenceIdeal.Read.val_main_v44 (F := Ideal) (m ((c : Thread nD τ).loc main_arg9)) := by
  show StableHlo.after hostOps1 (W2 m ρ c) (Proc.devRef .tc main_v37) = _
  after_results_simp
  rw [Kept.W2_arg9 m ρ c]
  rfl

/-- … and lays the bias out as a row. -/
theorem bias1_at : W3 m ρ c (Proc.devRef .tc main_v38) = Cert.ReferenceIdeal.Read.val_main_v41 (F := Ideal) (m ((c : Thread nD τ).loc main_arg8)) := by
  show StableHlo.after hostOps1 (W2 m ρ c) (Proc.devRef .tc main_v38) = _
  after_results_simp
  rw [Kept.W2_arg8 m ρ c]
  exact Kept.bias_row64 _

/-- After the second region its result buffer holds the second layer's features of the arguments. -/
theorem feat2_at : W4 m ρ c (Proc.devRef .tc main_v39) = feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold feat2
  rw [← feat1_at m ρ c, ← agg1_at m ρ c, ← wrel1_at m ρ c, ← wroot1_at m ρ c, ← bias1_at m ρ c, ← Kept.W3_v25 m ρ c]
  exact (W4_arr m ρ c 5).trans (Region1.final (V3 m ρ) c)

/-! ## The third layer -/

theorem agg2_at : W5 m ρ c (Proc.devRef .tc main_v49) = aggregate64 (W4 m ρ c (Proc.devRef .tc main_v39)) (m ((c : Thread nD τ).loc main_arg1)) := by
  show StableHlo.after hostOps2 (W4 m ρ c) (Proc.devRef .tc main_v49) = _
  after_results_simp
  rw [Kept.W4_v1 m ρ c, Kept.W4_v3 m ρ c]
  rfl

theorem wrel2_at : W5 m ρ c (Proc.devRef .tc main_v50) = Cert.ReferenceIdeal.Read.val_main_v58 (F := Ideal) (m ((c : Thread nD τ).loc main_arg10)) := by
  show StableHlo.after hostOps2 (W4 m ρ c) (Proc.devRef .tc main_v50) = _
  after_results_simp
  rw [Kept.W4_arg10 m ρ c]
  rfl

theorem wroot2_at : W5 m ρ c (Proc.devRef .tc main_v51) = Cert.ReferenceIdeal.Read.val_main_v63 (F := Ideal) (m ((c : Thread nD τ).loc main_arg12)) := by
  show StableHlo.after hostOps2 (W4 m ρ c) (Proc.devRef .tc main_v51) = _
  after_results_simp
  rw [Kept.W4_arg12 m ρ c]
  rfl

theorem bias2_at : W5 m ρ c (Proc.devRef .tc main_v52) = Cert.ReferenceIdeal.Read.val_main_v60 (F := Ideal) (m ((c : Thread nD τ).loc main_arg11)) := by
  show StableHlo.after hostOps2 (W4 m ρ c) (Proc.devRef .tc main_v52) = _
  after_results_simp
  rw [Kept.W4_arg11 m ρ c]
  exact Kept.bias_row64 _

/-- After the third region its result buffer holds the third layer's features of the arguments. -/
theorem feat3_at : W6 m ρ c (Proc.devRef .tc main_v53) = feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold feat3
  rw [← feat2_at m ρ c, ← agg2_at m ρ c, ← wrel2_at m ρ c, ← wroot2_at m ρ c, ← bias2_at m ρ c, ← Kept.W5_v39 m ρ c]
  exact (W6_arr m ρ c 5).trans (Region2.final (V5 m ρ) c)

/-! ## The classifier -/

/-- The stretch before the last region takes the per-graph means of the third layer's features, -/
theorem pooled_at : W7 m ρ c (Proc.devRef .tc main_v65) = meanPool (W6 m ρ c (Proc.devRef .tc main_v53)) (m ((c : Thread nD τ).loc main_arg2)) := by
  show StableHlo.after hostOps3 (W6 m ρ c) (Proc.devRef .tc main_v65) = _
  after_results_simp
  rw [Kept.W6_arg2 m ρ c]
  rfl

theorem wcls_at : W7 m ρ c (Proc.devRef .tc main_v66) = Cert.ReferenceIdeal.Read.val_main_v79 (F := Ideal) (m ((c : Thread nD τ).loc main_arg13)) := by
  show StableHlo.after hostOps3 (W6 m ρ c) (Proc.devRef .tc main_v66) = _
  after_results_simp
  rw [Kept.W6_arg13 m ρ c]
  rfl

theorem bcls_at : W7 m ρ c (Proc.devRef .tc main_v67) = Cert.ReferenceIdeal.Read.val_main_v81 (F := Ideal) (m ((c : Thread nD τ).loc main_arg14)) := by
  show StableHlo.after hostOps3 (W6 m ρ c) (Proc.devRef .tc main_v67) = _
  after_results_simp
  rw [Kept.W6_arg14 m ρ c]
  exact Kept.bias_row10 _

/-- THE RESULT BUFFER at the last boundary: the network's logits of the argument arrays. -/
theorem result_eq : W8 m ρ c (Proc.devRef .tc main_v68) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold logits
  rw [← feat3_at m ρ c, ← pooled_at m ρ c, ← wcls_at m ρ c, ← bcls_at m ρ c]
  exact (W8_arr m ρ c 3).trans (Region3.final (V7 m ρ) c)

end Cert.KernelIdeal.Walk

end
-- ==== Proof.RefStages.lean ====
/-
  The reference program, stage by stage, is the network of the specification.

  Each dense layer of the reference is a product read entry by entry: the sum over `k` of the left array at `(p, k)`
  times the transposed weight at `(k, q)`, the bias row's entry `q` added, and (but for the last layer) the maximum with
  the zero word taken. That is the layer of the specification, entry by entry. In the two graph-convolution layers the
  reference adds the bias between the two products, the specification after both: a sum of three extended reals does
  not depend on that order. The gather / scatter-add / pooling chains between the layers are the specification's own
  terms, applied to arrays already shown equal.
-/
import proofs.«103520_j88648124991072_1_alg».proof.Proof.Spec

set_option maxRecDepth 16384

noncomputable section

open scoped BigOperators

namespace Cert.ReferenceIdeal.RefValue

open Cert.Spec Cert.Stages Cert.ReferenceIdeal Cert.ReferenceIdeal.Read Idealize.ShloMosaic Idealize.ShloMosaic.ValueIdx

variable (a0 : IArr S100000x2) (a1 : IArr S2x1250000) (a2 : IArr S100000) (a3 a4 : FArr S16x8) (a5 : FArr S32x16) (a6 : FArr S32)
  (a7 : FArr S64x32) (a8 : FArr S64) (a9 : FArr S64x32) (a10 : FArr S64x64) (a11 : FArr S64) (a12 : FArr S64x64)
  (a13 : FArr S10x64) (a14 : FArr S10)

/-! ## The first layer -/

/-- The left operand of the first product at `(p, q)`, term `k`: entry `(p, k)`. -/
theorem lidx24 (p : Fin 100000) (q : Fin 32) (k : Fin 16) : lidx_main_v24 (ix2 p q) k = ix2 p k :=
  funext fun a => Fin.ext (by match a with | ⟨0, _⟩ => rfl | ⟨1, _⟩ => rfl)

/-- The right operand of the first product at `(p, q)`, term `k`: entry `(k, q)`. -/
theorem ridx24 (p : Fin 100000) (q : Fin 32) (k : Fin 16) : ridx_main_v24 (ix2 p q) k = ix2 k q :=
  funext fun a => Fin.ext (by match a with | ⟨0, _⟩ => rfl | ⟨1, _⟩ => rfl)

/-- The bias row spread over the nodes, at `(p, q)`: the row's entry `q`. -/
theorem idx26 (p : Fin 100000) (q : Fin 32) : idx_main_v26 (ix2 p q) = ix2 0 q :=
  funext fun a => Fin.ext (by match a with | ⟨0, _⟩ => rfl | ⟨1, _⟩ => rfl)

/-- The reference's first rectified layer is the specification's. -/
theorem feat1_eq : val_main_v28 (F := Ideal) a0 a3 a4 a5 a6 = feat1 a0 a3 a4 a5 a6 := by
  funext i
  obtain ⟨p, q, rfl⟩ : ∃ (p : Fin 100000) (q : Fin 32), i = ix2 p q := ⟨i 0, i 1, eq_ix2 i⟩
  rw [val_main_v28_apply, val_main_v27_apply, val_main_v24_apply, val_main_v26_apply, val_main_call0_v0_apply,
    val_main_call0_cst_apply, idx26]
  simp only [lidx24, ridx24]
  unfold feat1 affineRelu affAt dotAt feat0
  rfl

/-! ## The first graph convolution -/

/-- The reference's sums over incoming edges of the first layer's features are the specification's. -/
theorem agg1_eq : val_main_v38 (F := Ideal) a0 a1 a3 a4 a5 a6 = aggregate32 (feat1 a0 a3 a4 a5 a6) a1 := by
  rw [← feat1_eq a0 a3 a4 a5 a6]
  unfold aggregate32 val_main_v38 val_main_v35
  rfl

/-- The left operand of the product with the neighbours' sums at `(p, q)`, term `k`: entry `(p, k)`. -/
theorem lidx40 (p : Fin 100000) (q : Fin 64) (k : Fin 32) : lidx_main_v40 (ix2 p q) k = ix2 p k :=
  funext fun a => Fin.ext (by match a with | ⟨0, _⟩ => rfl | ⟨1, _⟩ => rfl)

/-- Its right operand: entry `(k, q)`. -/
theorem ridx40 (p : Fin 100000) (q : Fin 64) (k : Fin 32) : ridx_main_v40 (ix2 p q) k = ix2 k q :=
  funext fun a => Fin.ext (by match a with | ⟨0, _⟩ => rfl | ⟨1, _⟩ => rfl)

/-- The left operand of the product with the node's own features at `(p, q)`, term `k`: entry `(p, k)`. -/
theorem lidx45 (p : Fin 100000) (q : Fin 64) (k : Fin 32) : lidx_main_v45 (ix2 p q) k = ix2 p k :=
  funext fun a => Fin.ext (by match a with | ⟨0, _⟩ => rfl | ⟨1, _⟩ => rfl)

/-- Its right operand: entry `(k, q)`. -/
theorem ridx45 (p : Fin 100000) (q : Fin 64) (k : Fin 32) : ridx_main_v45 (ix2 p q) k = ix2 k q :=
  funext fun a => Fin.ext (by match a with | ⟨0, _⟩ => rfl | ⟨1, _⟩ => rfl)

/-- The bias row spread over the nodes, at `(p, q)`: the row's entry `q`. -/
theorem idx42 (p : Fin 100000) (q : Fin 64) : idx_main_v42 (ix2 p q) = ix2 0 q :=
  funext fun a => Fin.ext (by match a with | ⟨0, _⟩ => rfl | ⟨1, _⟩ => rfl)

/-- The reference's first rectified graph convolution is the specification's: the reference adds the bias between the
    two products, the specification after both. -/
theorem feat2_eq : val_main_v47 (F := Ideal) a0 a1 a3 a4 a5 a6 a7 a8 a9 = feat2 a0 a1 a3 a4 a5 a6 a7 a8 a9 := by
  funext i
  obtain ⟨p, q, rfl⟩ : ∃ (p : Fin 100000) (q : Fin 64), i = ix2 p q := ⟨i 0, i 1, eq_ix2 i⟩
  rw [val_main_v47_apply, val_main_v46_apply, val_main_v43_apply, val_main_v40_apply, val_main_v45_apply,
    val_main_v42_apply, val_main_call1_v0_apply, val_main_call1_cst_apply, idx42, agg1_eq, feat1_eq]
  simp only [lidx40, ridx40, lidx45, ridx45, Ideal.maximumf_def, Ideal.addf_def]
  unfold feat2 convRelu convAt dotAt
  exact congrArg (fun z => max z zeroWord) (bias_between _ _ _)

/-! ## The second graph convolution -/

/-- The reference's sums over incoming edges of the second layer's features are the specification's. -/
theorem agg2_eq : val_main_v57 (F := Ideal) a0 a1 a3 a4 a5 a6 a7 a8 a9
    = aggregate64 (feat2 a0 a1 a3 a4 a5 a6 a7 a8 a9) a1 := by
  rw [← feat2_eq a0 a1 a3 a4 a5 a6 a7 a8 a9]
  unfold aggregate64 val_main_v57 val_main_v54
  rfl

/-- The left operand of the product with the neighbours' sums at `(p, q)`, term `k`: entry `(p, k)`. -/
theorem lidx59 (p : Fin 100000) (q : Fin 64) (k : Fin 64) : lidx_main_v59 (ix2 p q) k = ix2 p k :=
  funext fun a => Fin.ext (by match a with | ⟨0, _⟩ => rfl | ⟨1, _⟩ => rfl)

/-- Its right operand: entry `(k, q)`. -/
theorem ridx59 (p : Fin 100000) (q : Fin 64) (k : Fin 64) : ridx_main_v59 (ix2 p q) k = ix2 k q :=
  funext fun a => Fin.ext (by match a with | ⟨0, _⟩ => rfl | ⟨1, _⟩ => rfl)

/-- The left operand of the product with the node's own features at `(p, q)`, term `k`: entry `(p, k)`. -/
theorem lidx64 (p : Fin 100000) (q : Fin 64) (k : Fin 64) : lidx_main_v64 (ix2 p q) k = ix2 p k :=
  funext fun a => Fin.ext (by match a with | ⟨0, _⟩ => rfl | ⟨1, _⟩ => rfl)

/-- Its right operand: entry `(k, q)`. -/
theorem ridx64 (p : Fin 100000) (q : Fin 64) (k : Fin 64) : ridx_main_v64 (ix2 p q) k = ix2 k q :=
  funext fun a => Fin.ext (by match a with | ⟨0, _⟩ => rfl | ⟨1, _⟩ => rfl)

/-- The bias row spread over the nodes, at `(p, q)`: the row's entry `q`. -/
theorem idx61 (p : Fin 100000) (q : Fin 64) : idx_main_v61 (ix2 p q) = ix2 0 q :=
  funext fun a => Fin.ext (by match a with | ⟨0, _⟩ => rfl | ⟨1, _⟩ => rfl)

/-- The reference's second rectified graph convolution is the specification's, by the same exchange of the bias and
    the second product. -/
theorem feat3_eq : val_main_v66 (F := Ideal) a0 a1 a3 a4 a5 a6 a7 a8 a9 a10 a11 a12
    = feat3 a0 a1 a3 a4 a5 a6 a7 a8 a9 a10 a11 a12 := by
  funext i
  obtain ⟨p, q, rfl⟩ : ∃ (p : Fin 100000) (q : Fin 64), i = ix2 p q := ⟨i 0, i 1, eq_ix2 i⟩
  rw [val_main_v66_apply, val_main_v65_apply, val_main_v62_apply, val_main_v59_apply, val_main_v64_apply,
    val_main_v61_apply, val_main_call2_v0_apply, val_main_call2_cst_apply, idx61, agg2_eq, feat2_eq]
  simp only [lidx59, ridx59, lidx64, ridx64, Ideal.maximumf_def, Ideal.addf_def]
  unfold feat3 convRelu convAt dotAt
  exact congrArg (fun z => max z zeroWord) (bias_between _ _ _)

/-! ## The mean over each graph and the classifier -/

/-- The reference's per-graph means of the last node features are the specification's. -/
theorem pool_eq : val_main_v78 (F := Ideal) a0 a1 a2 a3 a4 a5 a6 a7 a8 a9 a10 a11 a12
    = meanPool (feat3 a0 a1 a3 a4 a5 a6 a7 a8 a9 a10 a11 a12) a2 := by
  rw [← feat3_eq a0 a1 a3 a4 a5 a6 a7 a8 a9 a10 a11 a12]
  unfold meanPool val_main_v78 val_main_v69
  rfl

/-- The left operand of the classifier's product at `(p, q)`, term `k`: entry `(p, k)`. -/
theorem lidx80 (p : Fin 1024) (q : Fin 10) (k : Fin 64) : lidx_main_v80 (ix2 p q) k = ix2 p k :=
  funext fun a => Fin.ext (by match a with | ⟨0, _⟩ => rfl | ⟨1, _⟩ => rfl)

/-- Its right operand: entry `(k, q)`. -/
theorem ridx80 (p : Fin 1024) (q : Fin 10) (k : Fin 64) : ridx_main_v80 (ix2 p q) k = ix2 k q :=
  funext fun a => Fin.ext (by match a with | ⟨0, _⟩ => rfl | ⟨1, _⟩ => rfl)

/-- The bias row spread over the graphs, at `(p, q)`: the row's entry `q`. -/
theorem idx82 (p : Fin 1024) (q : Fin 10) : idx_main_v82 (ix2 p q) = ix2 0 q :=
  funext fun a => Fin.ext (by match a with | ⟨0, _⟩ => rfl | ⟨1, _⟩ => rfl)

/-- The reference's result is the specification's: the affine classifier of the per-graph means. -/
theorem result_eq : val_main_v83 (F := Ideal) a0 a1 a2 a3 a4 a5 a6 a7 a8 a9 a10 a11 a12 a13 a14
    = logits a0 a1 a2 a3 a4 a5 a6 a7 a8 a9 a10 a11 a12 a13 a14 := by
  funext i
  obtain ⟨p, q, rfl⟩ : ∃ (p : Fin 1024) (q : Fin 10), i = ix2 p q := ⟨i 0, i 1, eq_ix2 i⟩
  rw [val_main_v83_apply, val_main_v80_apply, val_main_v82_apply, idx82, pool_eq]
  simp only [lidx80, ridx80, Ideal.addf_def]
  unfold logits affine affAt dotAt
  rfl

end Cert.ReferenceIdeal.RefValue

end
-- ==== Proof.lean ====
/-
  The certificate's five claims for a graph network of four dense layers.

  Both programs embed each node's two tokens, apply a rectified affine layer, two rectified graph convolutions (each
  adds a product of the summed in-neighbour features to a product of the node's own features and a bias), average the
  nodes of each graph, and apply an affine classifier. The kernel program computes each dense layer in a region over
  blocks of rows, with the matrix unit's product into a zero accumulator; the reference computes it with whole-array
  products on the host. On the extended reals each layer is the same sum of products entry by entry (the kernel adds the
  bias after the second product, the reference before it: addition is commutative and associative, also at the
  infinities), and the gather, scatter-add and pooling operations between the layers are the same in both programs,
  applied to equal arrays. No finiteness of the inputs is used.

  The three frames: the kernel program's two (word level and idealized) are its regions' launches, bodies and
  write-backs run in order; the reference's is its run with the result dropped. The idealization rewrote nothing, so
  `preserves` has nothing to state. `algebraic`: the idealized kernel's run ends with the result buffer at the
  contents the last region leaves, which walked back through the regions and host stretches is `Spec.logits` of the
  arguments; the reference's run ends at its composed term, which is the same `Spec.logits` of its arguments, equal to
  the kernel's by the agreement of the two memories.
-/
import proofs.«103520_j88648124991072_1_alg».proof.Defs
import proofs.«103520_j88648124991072_1_alg».proof.Proof.Gen.Kernel
import proofs.«103520_j88648124991072_1_alg».proof.Proof.Gen.Kernel.Frame
import proofs.«103520_j88648124991072_1_alg».proof.Proof.Gen.KernelIdeal
import proofs.«103520_j88648124991072_1_alg».proof.Proof.Gen.KernelIdeal.Frame
import proofs.«103520_j88648124991072_1_alg».proof.Proof.Gen.ReferenceIdeal
import proofs.«103520_j88648124991072_1_alg».proof.Proof.Gen.Pre_finite_inputs
import proofs.«103520_j88648124991072_1_alg».proof.Proof.Gen.ReferenceIdeal.Run
import proofs.«103520_j88648124991072_1_alg».proof.Proof.Gen.ReferenceIdeal.Read
import proofs.«103520_j88648124991072_1_alg».proof.Proof.ValueRun
import proofs.«103520_j88648124991072_1_alg».proof.Proof.Walk
import proofs.«103520_j88648124991072_1_alg».proof.Proof.RefStages
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result at the network's logits of
    those arguments. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Walk.result_eq m ρ c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14⟩ := hagree c
    rw [(h c).1, Cert.ReferenceIdeal.Read.val_main_v83_eq, Cert.ReferenceIdeal.RefValue.result_eq,
      e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
